-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S1000000x64 .f32) (main_arg2 : FVec F S1000000x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x64 .f32 := Host.absf main_arg2
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg0 main_v9
  let main_c_3 : IVec S_ 32 := constantI S_ 32 999999#32
  let main_v11 : IVec S16384 32 := broadcastInDim S16384 ![] bcast_S_S16384 main_c_3
  let main_v12 : IVec S16384 1 := cmpi .sle main_arg0 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384 : Shape := ⟨1, ![16384]⟩
abbrev S1000000x64 : Shape := ⟨2, ![1000000, 64]⟩
abbrev S1000000x128 : Shape := ⟨2, ![1000000, 128]⟩
abbrev S16384x128 : Shape := ⟨2, ![16384, 128]⟩
abbrev S512 : Shape := ⟨1, ![512]⟩
abbrev S512x128 : Shape := ⟨2, ![512, 128]⟩
abbrev S_ : Shape := ⟨0, ![]⟩
abbrev S16384x64 : Shape := ⟨2, ![16384, 64]⟩

abbrev nBuf : Table → Nat
  | .hbm => 7
  | .local .scVector .vmem => 2
  | _ => 0

abbrev bufTy : (tb : Table) → Fin (nBuf tb) → BufTy
  | .hbm, ⟨0, _⟩ => ⟨S16384, .i32⟩
  | .hbm, ⟨1, _⟩ => ⟨S1000000x64, .f32⟩
  | .hbm, ⟨2, _⟩ => ⟨S1000000x64, .f32⟩
  | .hbm, ⟨3, _⟩ => ⟨S1000000x128, .f32⟩
  | .hbm, ⟨4, _⟩ => ⟨S16384x128, .f32⟩
  | .hbm, ⟨5, _⟩ => ⟨S16384x64, .f32⟩
  | .hbm, ⟨6, _⟩ => ⟨S16384x64, .f32⟩
  | .local .scVector .vmem, ⟨0, _⟩ => ⟨S512, .i32⟩
  | .local .scVector .vmem, ⟨1, _⟩ => ⟨S512x128, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg0_scv : Ref sig .scVector := ⟨.hbm, 0, rfl⟩
abbrev main_v0_scv : Ref sig .scVector := ⟨.hbm, 3, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  concatenates_S1000000x64_S1000000x64_S1000000x128_d1 : Shape.Concatenates [S1000000x64, S1000000x64] S1000000x128 1
  inb_S1000000x128_S1000000x128_0_0 : ∀ a, (![0, 0] : Fin 2 → Nat) a + S1000000x128.size a ≤ S1000000x128.size a
  gathers_S1000000x128_S512x128 : S1000000x128.Gathers 0 S512x128
  slices_S16384x128_S16384x64_0_0 : S16384x128.Slices ![0, 0] S16384x64
  slices_S16384x128_S16384x64_0_64 : S16384x128.Slices ![0, 64] S16384x64
  hcc0_scratch2 : 0 + S_.numel ≤ 3
  hcc0_scratch3 : 1 + S_.numel ≤ 3
  hcc0_scratch4 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ a, (k0_off2 i) a + S512x128.size a ≤ S16384x128.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4

class Facts : Prop extends Facts₀ where

variable [Facts]
-- ==== ReferenceIdeal.lean ====
abbrev S16384 : Shape := ⟨1, ![16384]⟩
abbrev S1000000x64 : Shape := ⟨2, ![1000000, 64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 49
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x64, .f32⟩
  | .hbm, ⟨2, _⟩ => ⟨S1000000x64, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x64, .f32⟩
  | .hbm, ⟨22, _⟩ => ⟨S16384x64, .i1⟩
  | .hbm, ⟨23, _⟩ => ⟨S_, .f32⟩
  | .hbm, ⟨24, _⟩ => ⟨S16384x64, .f32⟩
  | .hbm, ⟨25, _⟩ => ⟨S16384x64, .f32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S1, .i32⟩
  | .hbm, ⟨35, _⟩ => ⟨S_, .i32⟩
  | .hbm, ⟨36, _⟩ => ⟨S16384x1, .i32⟩
  | .hbm, ⟨37, _⟩ => ⟨S16384x1, .i1⟩
  | .hbm, ⟨38, _⟩ => ⟨S1x1, .i32⟩
  | .hbm, ⟨39, _⟩ => ⟨S16384x1, .i32⟩
  | .hbm, ⟨40, _⟩ => ⟨S16384x1, .i1⟩
  | .hbm, ⟨41, _⟩ => ⟨S16384x1, .i1⟩
  | .hbm, ⟨42, _⟩ => ⟨S_, .i1⟩
  | .hbm, ⟨43, _⟩ => ⟨S16384, .i1⟩
  | .hbm, ⟨44, _⟩ => ⟨S16384x64, .f32⟩
  | .hbm, ⟨45, _⟩ => ⟨S16384x64, .i1⟩
  | .hbm, ⟨46, _⟩ => ⟨S_, .f32⟩
  | .hbm, ⟨47, _⟩ => ⟨S16384x64, .f32⟩
  | .hbm, ⟨48, _⟩ => ⟨S16384x64, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  gather_S1000000x64_S16384x1_S16384x64_1_0_n_n_0_1_164_wf : GatherDims.WF S1000000x64 S16384x1 S16384x64 [1] [0] [] [0] [] 1 ![1, 64]

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf

class Facts : Prop extends Facts₀ where

variable [Facts]
-- ==== Proof.LookupSpec.lean ====
/-
  THE LOOKUP, AS ONE FUNCTION.

  An index word names a table row: itself when it is below the table's 1000000 rows (a word past the end names the
  last row, which no index in range meets). The lookup of a table w : [1000000, 64] at indices idx : [16384] is
  (b, j) ↦ w (row idx[b], j).

  Two tables laid side by side, a : columns 0..63 and b : columns 64..127, looked up as ONE table of 128 columns and
  then cut back into the left and the right 64 columns, are the two lookups: column j < 64 of the wide table is
  column j of a, column 64 + j is column j of b, and the row an index names does not depend on the column.

  Nothing here mentions a program.
-/
import Idealize.ShloMosaic.Lib.ValueIdx
import Idealize.ShloMosaic.Lib.Pipeline.Value

noncomputable section

namespace Cert.Lookup

open Idealize.ShloMosaic Idealize.ShloMosaic.ValueIdx

abbrev Tbl : Shape := ⟨2, ![1000000, 64]⟩
abbrev Wide : Shape := ⟨2, ![1000000, 128]⟩
abbrev Ids : Shape := ⟨1, ![16384]⟩
abbrev Rows : Shape := ⟨2, ![16384, 128]⟩
abbrev Out : Shape := ⟨2, ![16384, 64]⟩

/-- The row of the table an index word names. -/
def rowOf (w : BitVec 32) : Fin 1000000 := ⟨min w.toNat 999999, by omega⟩

theorem rowOf_val {w : BitVec 32} (h : w.toNat < 1000000) : (rowOf w).val = w.toNat := by
  show min w.toNat 999999 = _; omega

variable {α : Type}

/-- The lookup of a table of 64 columns. -/
def lookup (w : Tbl.Idx → α) (idx : Ids.Idx → BitVec 32) : Out.Idx → α :=
  fun y => w (ix2 (rowOf (idx (ix1 (y 0)))) (y 1))

/-- The lookup of a table of 128 columns. -/
def lookupWide (t : Wide.Idx → α) (idx : Ids.Idx → BitVec 32) : Rows.Idx → α :=
  fun y => t (ix2 (rowOf (idx (ix1 (y 0)))) (y 1))

/-- The left 64 columns of the wide lookup of two tables side by side: the lookup of the first. -/
theorem left_half (a b : Tbl.Idx → α) (idx : Ids.Idx → BitVec 32)
    (hc : Shape.Concatenates [Tbl, Tbl] Wide 1) (hs : Rows.Slices ![0, 0] Out) :
    extractStridedSlice Out ![0, 0] (lookupWide (concatenate Wide 1 [⟨Tbl, a⟩, ⟨Tbl, b⟩] hc) idx) hs = lookup a idx := by
  funext y
  obtain ⟨p, q, rfl⟩ : ∃ (p : Fin 16384) (q : Fin 64), y = ix2 p q := ⟨y 0, y 1, eq_ix2 y⟩
  have hq : q.val < 128 := by have := q.isLt; omega
  rw [extractStridedSlice_apply ![0, 0] _ hs (ix2 p q) (ix2 p ⟨q.val, hq⟩)
    (fun a => by match a with | ⟨0, _⟩ => simp | ⟨1, _⟩ => simp)]
  unfold lookupWide lookup
  exact concatenate_pair_apply_left (t := Wide) (s₁ := Tbl) (s₂ := Tbl) (1 : Fin 2) a b hc _ rfl _
    (fun c => by match c with | ⟨0, _⟩ => rfl | ⟨1, _⟩ => rfl)

/-- The right 64 columns: the lookup of the second. -/
theorem right_half (a b : Tbl.Idx → α) (idx : Ids.Idx → BitVec 32)
    (hc : Shape.Concatenates [Tbl, Tbl] Wide 1) (hs : Rows.Slices ![0, 64] Out) :
    extractStridedSlice Out ![0, 64] (lookupWide (concatenate Wide 1 [⟨Tbl, a⟩, ⟨Tbl, b⟩] hc) idx) hs = lookup b idx := by
  funext y
  obtain ⟨p, q, rfl⟩ : ∃ (p : Fin 16384) (q : Fin 64), y = ix2 p q := ⟨y 0, y 1, eq_ix2 y⟩
  have hq : 64 + q.val < 128 := by have := q.isLt; omega
  rw [extractStridedSlice_apply ![0, 64] _ hs (ix2 p q) (ix2 p ⟨64 + q.val, hq⟩)
    (fun a => by match a with | ⟨0, _⟩ => simp | ⟨1, _⟩ => simp)]
  unfold lookupWide lookup
  exact concatenate_pair_apply_right (t := Wide) (s₁ := Tbl) (s₂ := Tbl) (1 : Fin 2) a b hc _ rfl rfl _
    (fun c hcne => by match c with | ⟨0, _⟩ => rfl | ⟨1, _⟩ => exact absurd rfl hcne)
    (by show q.val + 64 = 64 + q.val; omega)

end Cert.Lookup

end
-- ==== Proof.KernelSetup.lean ====
/-
  An embedding lookup on the SparseCores, as the launch theorem sees it.

  The two tables W0, W1 : [1000000, 64] are laid side by side into one table of 128 columns; the 16384 indices are cut
  into 32 consecutive blocks of 512, one per vector subcore (subcore s of SparseCore c takes block 2·s + c); each
  subcore copies its block of indices into its own memory, gathers the 512 table rows they name, and copies those
  rows out to the same block of rows of a [16384, 128] array, whose left and right halves are the two results.

  This module fixes the vocabulary: the blocks (as rectangles of the index array and of the row array, stated through
  the program's own offset functions) and the table's contents; the ONE whole-array function the row array ends at
  (row b, column j ↦ table row idx[b], column j) is the wide lookup of the specification.
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«204638_g89515708383799_cont_9to1_m_1121_23_alg».proof.Proof.Gen.Kernel
import proofs.«204638_g89515708383799_cont_9to1_m_1121_23_alg».proof.Proof.Gen.Kernel.Skeleton
import proofs.«204638_g89515708383799_cont_9to1_m_1121_23_alg».proof.Proof.LookupSpec

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays -/

/-- The indices, the two tables, the table of 128 columns, the gathered rows, the two results: as locations of device d. -/
abbrev iLoc (d : Dev nD) : Loc nD τ sig := (SparseCore.T d).loc main_arg0
abbrev aLoc (d : Dev nD) : Loc nD τ sig := (SparseCore.T d).loc main_arg1
abbrev bLoc (d : Dev nD) : Loc nD τ sig := (SparseCore.T d).loc main_arg2
abbrev tLoc (d : Dev nD) : Loc nD τ sig := (SparseCore.T d).loc main_v0
abbrev oLoc (d : Dev nD) : Loc nD τ sig := (SparseCore.T d).loc main_v1
abbrev pLoc (d : Dev nD) : Loc nD τ sig := (SparseCore.T d).loc main_v2
abbrev qLoc (d : Dev nD) : Loc nD τ sig := (SparseCore.T d).loc main_v3

/-- A subcore's grid coordinates from its SparseCore and its number there. -/
def coordsV (c : Fin (grid0.bound 0)) (s : Fin (grid0.bound 1)) : grid0.Coords :=
  fun | 0 => c | 1 => s | ⟨_ + 2, h⟩ => absurd h (Nat.not_lt.2 (Nat.le_add_left _ _))

/-- The block of 512 indices, and of 512 rows, that the subcore at grid point L works on. -/
abbrev iBlk (L : grid0.Coords) : Rect S16384 := Rect.unit (s := S16384) (k0_off1 L) S512.size (k0_off1_inb L)
abbrev oBlk (L : grid0.Coords) : Rect S16384x128 := Rect.unit (s := S16384x128) (k0_off2 L) S512x128.size (k0_off2_inb L)

/-! ## The values -/

section Values
variable [FloatOps F]

/-- The two tables side by side. -/
def tableOf (a b : S1000000x64.Idx → Elt F .f32) : S1000000x128.Idx → Elt F .f32 :=
  concatenate S1000000x128 1 [⟨S1000000x64, a⟩, ⟨S1000000x64, b⟩] concatenates_S1000000x64_S1000000x64_S1000000x128_d1

end Values

end Cert.Proof.KernelRun

end
-- ==== Proof.LibDelivered.lean ====
/-
  WHAT A TRANSFER DELIVERS, READ AT AN INDEX.

  * A write through a view's whole rectangle, read back through the view, is the payload (whatever the buffer held).
  * A gather's payload at an index of the destination is the source at the index's own coordinates, but on the indexed
    axis at the row the offset list names for the index's row; an offset list of rank one names, for row `k`, the
    word at coordinate `k`. So a rank-two gather along axis 0, written through the destination's whole rectangle and
    read back at `(b, c)`, is the source at `(list[b], c)`.
  * A plain copy writes, unmasked, what the source read: read back through the destination it is what the source
    read; in the destination's buffer, the place of index `x` holds the payload at `x`, and every place of the
    destination's is the place of some index.

  Nothing here mentions a program.
-/
import Idealize.ShloMosaic.Lib.Writes
import Idealize.ShloMosaic.Lib.SparseCore.Stream
import Idealize.ShloMosaic.Lib.ValueIdx

namespace Cert.LibDelivered

open Idealize.ShloMosaic Idealize.ShloMosaic.ValueIdx

/-! ## A whole-rectangle write read back -/

section Whole
variable {sig : RefSig} {κ : Kind} {sp : Space} {s : Shape} {e : EltTy} {Val : EltTy → Type}

/-- A write through a view's whole rectangle, read back through the view, is the payload. -/
theorem read_writes_whole (v : View sig κ sp s e) (f : v.ty.Contents Val) (w : (Rect.whole s).shape.Idx → Val e) (x : s.Idx) :
    v.read Val (v.writes Val f [⟨Rect.whole s, w⟩]) x = w x := by
  have h := View.read_writes_cons_emb v f (Rect.whole s) w [] x
  rwa [Rect.emb_whole_apply] at h

/-- In the buffer, after a write through the view's whole rectangle, the place of index `x` holds the payload at `x`. -/
theorem writes_whole_emb (v : View sig κ sp s e) (f : v.ty.Contents Val) (w : (Rect.whole s).shape.Idx → Val e) (x : s.Idx) :
    v.writes Val f [⟨Rect.whole s, w⟩] (v.emb x) = _root_.cast (congrArg Val v.elt_eq.symm) (w x) := by
  have h := View.write_emb_of_mem (v := v.slice (Rect.whole s)) (Val := Val) f w (M := Finset.univ) (x := x) (Finset.mem_univ x)
  have he : (v.slice (Rect.whole s)).emb x = v.emb x := by
    show v.emb ((Rect.whole s).emb x) = v.emb x
    rw [Rect.emb_whole_apply]
  rw [he] at h
  exact h

/-- Every place of the view's is the place of some index, where the written buffer holds the payload. -/
theorem writes_whole_at (v : View sig κ sp s e) (f : v.ty.Contents Val) (w : (Rect.whole s).shape.Idx → Val e) {j : v.ty.Idx} (hj : j ∈ v.set) :
    ∃ x, v.emb x = j ∧ v.writes Val f [⟨Rect.whole s, w⟩] j = _root_.cast (congrArg Val v.elt_eq.symm) (w x) := by
  obtain ⟨x, -, rfl⟩ := Finset.mem_map.mp hj
  exact ⟨x, rfl, writes_whole_emb v f w x⟩

/-! ## A plain copy -/

/-- An unmasked write of what a source read, read back through the destination, is what the source read. -/
theorem read_copy (v : View sig κ sp s e) (f : v.ty.Contents Val) (w : s.Idx → Val e) :
    v.read Val (v.write Val f ((ReadAs.same : ReadAs Val s e s e).apply w) Finset.univ) = w := by
  rw [ReadAs.apply_same]
  exact View.read_write_univ f w

/-- … at an index. -/
theorem read_copy_apply (v : View sig κ sp s e) (f : v.ty.Contents Val) (w : s.Idx → Val e) (x : s.Idx) :
    v.read Val (v.write Val f ((ReadAs.same : ReadAs Val s e s e).apply w) Finset.univ) x = w x :=
  congrFun (read_copy v f w) x

/-- In the destination's buffer, the place of index `x` holds the payload at `x`. -/
theorem write_copy_emb (v : View sig κ sp s e) (f : v.ty.Contents Val) (w : s.Idx → Val e) (x : s.Idx) :
    v.write Val f ((ReadAs.same : ReadAs Val s e s e).apply w) Finset.univ (v.emb x)
      = _root_.cast (congrArg Val v.elt_eq.symm) (w x) := by
  rw [ReadAs.apply_same]
  exact View.write_emb_of_mem f w (Finset.mem_univ x)

/-- Every place of the destination's is the place of some index, where the written buffer holds the payload. -/
theorem write_copy_at (v : View sig κ sp s e) (f : v.ty.Contents Val) (w : s.Idx → Val e) {j : v.ty.Idx} (hj : j ∈ v.set) :
    ∃ x, v.emb x = j ∧ v.write Val f ((ReadAs.same : ReadAs Val s e s e).apply w) Finset.univ j
      = _root_.cast (congrArg Val v.elt_eq.symm) (w x) := by
  obtain ⟨x, -, rfl⟩ := Finset.mem_map.mp hj
  exact ⟨x, rfl, write_copy_emb v f w x⟩

end Whole

/-! ## A gather's payload -/

section Gather
variable {F : FTy → Type} {e : EltTy}

/-- A gather's payload at an index: the source at the gather's source index. -/
theorem gatherPayload_apply {s₀ s : Shape} {a : Nat} (hg : s₀.Gathers a s) (g : s₀.Idx → Elt F e)
    (r : Fin (s.size hg.axis') → Fin (s₀.size hg.axis)) (x : s.Idx) :
    SparseCore.gatherPayload hg g r x = g (hg.idx r x) := rfl

/-- Rank two along axis 0: the source index of `(b, c)` is `(the row named for b, c)`. -/
theorem gather_idx_rank2 {z o L : Nat} (hg : (⟨2, ![z, L]⟩ : Shape).Gathers 0 ⟨2, ![o, L]⟩)
    (r : Fin o → Fin z) (j : (⟨2, ![o, L]⟩ : Shape).Idx) :
    hg.idx r j = ix2 (r (j 0)) (j 1) := by
  funext a
  match a with
  | 0 => exact hg.idx_axis r j
  | 1 => exact Fin.ext (hg.idx_of_ne r j 1 Nat.one_ne_zero)

/-- An offset list of rank one names, for row `k`, the word at coordinate `k`. -/
theorem rows_rank1 {n o z : Nat} (idx : (⟨1, ![n]⟩ : Shape).Idx → Elt F .i32) (hn : (⟨1, ![n]⟩ : Shape).numel = o)
    (h : ∀ x, (idx x).toNat < z) (k : Fin o) (hk : k.val < n) :
    (SparseCore.rows idx hn h k).val = (idx (ix1 ⟨k.val, hk⟩)).toNat := by
  have e : (⟨1, ![n]⟩ : Shape).rowMajor.symm (k.cast hn.symm) = ix1 ⟨k.val, hk⟩ := by
    apply (⟨1, ![n]⟩ : Shape).rowMajor.injective
    rw [Equiv.apply_symm_apply]
    apply Fin.ext
    rw [Shape.rowMajor_val_one]
    rfl
  show (idx ((⟨1, ![n]⟩ : Shape).rowMajor.symm (k.cast hn.symm))).toNat = _
  rw [e]

/-- A rank-two gather along axis 0 through an offset list of rank one, written through the destination's whole
    rectangle and read back at `(b, c)`: the source at row `list[b]`, column `c`. -/
theorem read_gathered {sig : RefSig} {κ : Kind} {sp : Space} {z o L n : Nat}
    (v : View sig κ sp (⟨2, ![o, L]⟩ : Shape) e) (f : v.ty.Contents (Elt F))
    (hg : (⟨2, ![z, L]⟩ : Shape).Gathers 0 ⟨2, ![o, L]⟩) (g : (⟨2, ![z, L]⟩ : Shape).Idx → Elt F e)
    (idx : (⟨1, ![n]⟩ : Shape).Idx → Elt F .i32) (hn : (⟨1, ![n]⟩ : Shape).numel = o) (hin : ∀ x, (idx x).toNat < z)
    (b : Fin o) (c : Fin L) (hb : b.val < n) :
    v.read (Elt F) (v.writes (Elt F) f [⟨Rect.whole _, SparseCore.gatherPayload hg g (SparseCore.rows idx hn hin)⟩]) (ix2 b c)
      = g (ix2 ⟨(idx (ix1 ⟨b.val, hb⟩)).toNat, hin _⟩ c) := by
  rw [read_writes_whole]
  refine congrArg g ?_
  refine (gather_idx_rank2 hg (SparseCore.rows idx hn hin) (ix2 b c)).trans ?_
  funext a
  match a with
  | 0 => exact Fin.ext (rows_rank1 idx hn hin b hb)
  | 1 => rfl

end Gather

end Cert.LibDelivered
-- ==== Proof.KernelTile.lean ====
/-
  ONE SUBCORE'S TASK.

  The subcore at grid point L holds: its block of 512 indices (block 2·s + c of the index array), a read share of the
  whole table, its block of 512 rows of the row array, its two scratch buffers and its three DMA semaphores at zero.
  It copies the index block into its index scratch and waits; gathers the table rows the scratch names into its row
  scratch and waits; copies the row scratch out to its block of rows and waits. Each copy has a semaphore of its own
  and is waited for before the next begins, so no buffer is touched while a copy that reads or writes it is pending.

  The gather needs every offset it reads to name a table row: the offsets are the index block as the first copy
  landed it, and the indices are below 1000000 by hypothesis.

  What the block of rows ends at is the specification's wide lookup, place by place: the place (b, j) of the block
  is row off + b of the array; the copy out put there the row scratch's (b, j); the gather put there the table's
  (list[b], j); the list's b-th word is index off + b.
-/
import proofs.«204638_g89515708383799_cont_9to1_m_1121_23_alg».proof.Proof.KernelSetup
import proofs.«204638_g89515708383799_cont_9to1_m_1121_23_alg».proof.Proof.LibDelivered

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_arg0_scv : Memref Cert.Kernel.sig Kind.scVector Space.hbm Cert.Kernel.S16384 EltTy.i32)
local notation "tV" => (Memref.whole Cert.Kernel.main_v0_scv : Memref Cert.Kernel.sig Kind.scVector Space.hbm Cert.Kernel.S1000000x128 EltTy.f32)
local notation "oV" => (Memref.whole Cert.Kernel.main_v1_scv : Memref Cert.Kernel.sig Kind.scVector Space.hbm Cert.Kernel.S16384x128 EltTy.f32)
local notation "sI" => (Memref.whole Cert.Kernel.cc0_scratch0 : Memref Cert.Kernel.sig Kind.scVector Space.vmem Cert.Kernel.S512 EltTy.i32)
local notation "sR" => (Memref.whole Cert.Kernel.cc0_scratch1 : Memref Cert.Kernel.sig Kind.scVector Space.vmem Cert.Kernel.S512x128 EltTy.f32)

/-! ## A subcore's task -/

variable (m : (ℓ : Loc nD τ sig) → Buf (Elt F) ℓ)

abbrev cV (L : grid0.Coords) : Fin τ.nSC := (L 0).castLE hcore0
abbrev jV (L : grid0.Coords) : Fin τ.nSub := (L 1).castLE hsub0

/-- The subcore's block of the index array and of the row array, as the program slices them. -/
abbrev iSl (L : grid0.Coords) : Memref sig .scVector .hbm S512 .i32 := (iV).slice (iBlk L) (fun _ => rfl)
abbrev oSl (L : grid0.Coords) : Memref sig .scVector .hbm S512x128 .f32 := (oV).slice (oBlk L) (fun _ => rfl)
abbrev iSet (L : grid0.Coords) : Finset S16384.Idx := (iSl L).view.set
abbrev oSet (L : grid0.Coords) : Finset S16384x128.Idx := (oSl L).view.set

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scratch3.sem)
abbrev cCcell (d : Dev nD) (c : Fin τ.nSC) (i : Fin τ.nSub) : GSem nD τ sig := (V d c i, .dma cc0_scratch4.sem)

/-- What a subcore is handed: its block of the indices, a read share of the whole table, its block of the rows. -/
abbrev iBlkPts (d : Dev nD) (L : grid0.Coords) : sProp 𝕄 := iLoc d ↦[iSet L]{fullShare} m (iLoc d)
abbrev tShPts (d : Dev nD) (q : PosShare TreeShare) (t : Buf (Elt F) (tLoc d)) : sProp 𝕄 := tLoc d ↦{q} t
abbrev oBlkPts (d : Dev nD) (L : grid0.Coords) (f : Buf (Elt F) (oLoc d)) : sProp 𝕄 := oLoc d ↦[oSet L]{fullShare} f

section Tile
variable (d : Dev nD) (L : grid0.Coords)

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch3.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scratch4.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F]

/-- The offsets the gather reads are in range: what the index copy landed in the list's buffer is the subcore's block
    of the indices, each word below the table's 1000000 rows. -/
theorem list_inb (hpre : ∀ j, (m (iLoc d) j).toNat < 1000000) (g : Buf (Elt F) ((V d (cV L) (jV L)).loc cc0_scratch0)) :
    ∀ x, ((sI).view.read (Elt F) (View.write (Elt F) (sI).view g
        ((ReadAs.same : ReadAs (Elt F) S512 .i32 S512 .i32).apply ((iSl L).view.read (Elt F) (m (iLoc d)))) Finset.univ) x).toNat
      < S1000000x128.size gathers_S1000000x128_S512x128.axis := by
  intro x
  rw [ReadAs.apply_same, View.write_whole_univ]
  simp only [Memref.view_whole, View.read_whole]
  rw [show ∀ j, (iSl L).view.read (Elt F) (m (iLoc d)) j = m (iLoc d) ((iSl L).view.emb j) from fun j => (View.read_apply _ _).trans (cast_eq _ _)]
  exact hpre _

/-- The whole table, as the program slices it (offset zero, full size) for the gather. -/
abbrev tAll : Memref sig .scVector .hbm S1000000x128 .f32 :=
  (tV).slice (Rect.unit (s := S1000000x128) ![0, 0] S1000000x128.size inb_S1000000x128_S1000000x128_0_0) (fun _ => rfl)

/-- WHAT THE SUBCORE LEAVES IN ITS BLOCK OF ROWS: the index copy lands the block's 512 indices, the gather lands the
    table rows they name, the copy out lands those rows on the block; at every place of the block that is the table's
    row named by the index of the place's own row, at the place's column. -/
theorem delivered (fi : Buf (Elt F) (iLoc d)) (t : Buf (Elt F) (tLoc d)) (fo : Buf (Elt F) (oLoc d))
    (fs : Buf (Elt F) ((V d (cV L) (jV L)).loc cc0_scratch0)) (fr : Buf (Elt F) ((V d (cV L) (jV L)).loc cc0_scratch1))
    (hpre : ∀ j, (fi j).toNat < 1000000) (hn : S512.numel = S512x128.size gathers_S1000000x128_S512x128.axis')
    (hin : ∀ x, ((sI).view.read (Elt F) (View.write (Elt F) (sI).view fs
      ((ReadAs.same : ReadAs (Elt F) S512 .i32 S512 .i32).apply ((iSl L).view.read (Elt F) fi)) Finset.univ) x).toNat
        < S1000000x128.size gathers_S1000000x128_S512x128.axis)
    {j : S16384x128.Idx} (hj : j ∈ (oSl L).view.set) :
    (oSl L).view.writes (Elt F) fo [⟨Rect.whole S512x128, (ReadAs.same : ReadAs (Elt F) S512x128 .f32 S512x128 .f32).apply ((sR).view.read (Elt F) ((sR).view.writes (Elt F) fr
        [⟨Rect.whole _, SparseCore.gatherPayload gathers_S1000000x128_S512x128 ((tAll).view.read (Elt F) t)
          (SparseCore.rows ((sI).view.read (Elt F) (View.write (Elt F) (sI).view fs
            ((ReadAs.same : ReadAs (Elt F) S512 .i32 S512 .i32).apply ((iSl L).view.read (Elt F) fi)) Finset.univ)) hn hin)⟩]))⟩] j
      = Cert.Lookup.lookupWide t fi j := by
  obtain ⟨x, rfl, hx⟩ := Cert.LibDelivered.writes_whole_at (oSl L).view fo _ hj
  rw [hx]
  obtain ⟨b, c, rfl⟩ : ∃ (b : Fin 512) (c : Fin 128), x = ix2 b c := ⟨x 0, x 1, eq_ix2 x⟩
  refine (cast_eq _ _).trans ?_
  rw [ReadAs.apply_same]
  refine (Cert.LibDelivered.read_gathered (F := F) (sR).view fr gathers_S1000000x128_S512x128 ((tAll).view.read (Elt F) t) _ hn hin b c b.isLt).trans ?_
  have hT : ∀ k, (tAll).view.read (Elt F) t k = t ((tAll).view.emb k) := fun k => (View.read_apply _ _).trans (cast_eq _ _)
  rw [hT]
  unfold Cert.Lookup.lookupWide
  refine congrArg t ?_
  have hTe : ∀ k : S1000000x128.Idx, (tAll).view.emb k = k := by
    intro k; funext a; apply Fin.ext
    match a with
    | ⟨0, _⟩ => show 0 + 1 * (k 0).val = (k 0).val; omega
    | ⟨1, _⟩ => show 0 + 1 * (k 1).val = (k 1).val; omega
  rw [hTe]
  have hI : ∀ k, (iSl L).view.read (Elt F) fi k = fi ((iSl L).view.emb k) := fun k => (View.read_apply _ _).trans (cast_eq _ _)
  have he : (iSl L).view.emb (ix1 ⟨b.val, b.isLt⟩) = ix1 ((oSl L).view.emb (ix2 b c) 0) := by
    refine funext fun (a : Fin 1) => ?_
    obtain rfl : a = 0 := Subsingleton.elim _ _
    apply Fin.ext
    show k0_off1 L 0 + 1 * b.val = k0_off2 L 0 + 1 * b.val
    rw [k0_off1_eq, k0_off2_eq]; rfl
  refine congrArg₂ ix2 (Fin.ext ?_) (Fin.ext ?_)
  · show BitVec.toNat _ = _
    rw [Cert.LibDelivered.read_copy_apply, hI, he]
    exact (Cert.Lookup.rowOf_val (hpre _)).symm
  · show c.val = k0_off2 L 1 + 1 * c.val
    rw [k0_off2_eq]; simp

theorem tile_body (hF : (K (F := F)).Facts) (q : PosShare TreeShare) (t : Buf (Elt F) (tLoc d)) (fo : Buf (Elt F) (oLoc d))
    (hpre : ∀ j, (m (iLoc d) j).toNat < 1000000)
    (O : CellTallies nD τ sig (HIx 1)) (W : Waits sig (HIx 1)) (hO : ∀ g, O g none = 0) :
    iprop(levAts (K (F := F)).L (K (F := F)).lev ∗ emp
        ∗ (iBlkPts m d L ∗ tShPts d q t ∗ oBlkPts d L fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L iV (Memref.isWhole_whole _) tV (Memref.isWhole_whole _) oV (Memref.isWhole_whole _)
            sI (Memref.isWhole_whole _) sR (Memref.isWhole_whole _) cc0_scratch2 cc0_scratch3 cc0_scratch4)
          fun _ => iprop((iBlkPts m d L ∗ tShPts d q t ∗ oBlkPts d L (Cert.Lookup.lookupWide t (m (iLoc d))))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__body_eq_skeleton]; unfold cc0__body_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemA, HsemB, HsemC, Hsems⟩, HO⟩
  ihave Hmw := ((K (F := F)).mayWaits_none (thr := V d (cV L) (jV L)) hO) $$ Hlv
  ihave Hi' := (Entails.of_eq (show (iLoc d ↦[iSet L]{fullShare} m (iLoc d) : sProp 𝕄) = ((iSl L).view.loc (V d (cV L) (jV L)) ↦[(iSl L).view.set]{fullShare} m (iLoc d)) from rfl)) $$ Hi
  ihave Ho' := (Entails.of_eq (show (oLoc d ↦[oSet L]{fullShare} fo : sProp 𝕄) = ((oSl L).view.loc (V d (cV L) (jV L)) ↦[(oSl L).view.set]{fullShare} fo) from rfl)) $$ Ho
  ihave Ht' := (Entails.of_eq (show (tLoc d ↦{q} t : sProp 𝕄) = ((tV).view.loc (V d (cV L) (jV L)) ↦{q} t) from rfl)) $$ Ht
  ihave Hs' := (Entails.of_eq (show ((V d (cV L) (jV L)).loc cc0_scratch0 ↦{fullShare} fs : sProp 𝕄) = ((sI).view.loc (V d (cV L) (jV L)) ↦{fullShare} fs) from rfl)) $$ Hs
  ihave Hr' := (Entails.of_eq (show ((V d (cV L) (jV L)).loc cc0_scratch1 ↦{fullShare} fr : sProp 𝕄) = ((sR).view.loc (V d (cV L) (jV L)) ↦{fullShare} fr) from rfl)) $$ Hr
  have hin := list_inb m d L hpre
  sl_exec
  sl_unfold_run_names
  ihave Ho2 := (Entails.of_eq (pointsTo_congr (fun j hj => delivered (F := F) d L (m (iLoc d)) t fo fs fr hpre _ (hin fs) hj))) $$ Ho'
  sl_step
  isplitl [Hi' Ht' Ho2]
  · isplitl [Hi']; · iexact Hi'
    isplitl [Ht']; · iexact Ht'
    iexact Ho2
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.KernelRun

end
-- ==== Proof.KernelLaunch.lean ====
/-
  THE LAUNCH: from one subcore's task to the whole program's run.

  @main lays the two tables side by side (one host operation), starts the two SparseCores, waits for them, and cuts
  the gathered rows into the left and the right 64 columns (two host operations).

  What the call hands over. The index array and the row array are cut into 32 blocks of 512 rows: the blocks are
  pairwise disjoint (block 2·s + c starts at row 512·(2·s + c)) and cover the arrays (row r lies in block r / 512),
  so each array whole is the separating conjunction of its blocks, SparseCore by SparseCore and subcore by subcore.
  The table is read by all 32 subcores at once: its full share is split into one read share per SparseCore, and each
  SparseCore's share into one per subcore; the remainders wait with the TensorCore and with the sequencer and are
  joined back when the shares return. Each subcore hands back its block of the row array at the ONE whole-array
  function (the wide lookup), so the blocks join to the whole array at that function.

  The run: every weakly fair execution of the 35 threads ends, nothing faulting, with the three arguments unchanged
  and the two results the left and the right halves of the wide lookup of the side-by-side table.
-/
import proofs.«204638_g89515708383799_cont_9to1_m_1121_23_alg».proof.Proof.KernelTile

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ
local notation "iV" => (Memref.whole Cert.Kernel.main_arg0_scv : Memref Cert.Kernel.sig Kind.scVector Space.hbm Cert.Kernel.S16384 EltTy.i32)
local notation "tV" => (Memref.whole Cert.Kernel.main_v0_scv : Memref Cert.Kernel.sig Kind.scVector Space.hbm Cert.Kernel.S1000000x128 EltTy.f32)
local notation "oV" => (Memref.whole Cert.Kernel.main_v1_scv : Memref Cert.Kernel.sig Kind.scVector Space.hbm Cert.Kernel.S16384x128 EltTy.f32)
local notation "sI" => (Memref.whole Cert.Kernel.cc0_scratch0 : Memref Cert.Kernel.sig Kind.scVector Space.vmem Cert.Kernel.S512 EltTy.i32)
local notation "sR" => (Memref.whole Cert.Kernel.cc0_scratch1 : Memref Cert.Kernel.sig Kind.scVector Space.vmem Cert.Kernel.S512x128 EltTy.f32)

variable (m : (ℓ : Loc nD τ sig) → Buf (Elt F) ℓ) (ρ : Dev nD → PrngReg)

/-! ## The blocks tile the two arrays -/

/-- The grid point of subcore i of SparseCore c. -/
abbrev Lof (c : Fin 2) (i : Fin 16) : grid0.Coords := coordsV c i

theorem iSet_eq (L : grid0.Coords) : iSet L = (iBlk L).set := by
  show ((View.whole (main_arg0_scv : Ref sig .scVector)).slice (iBlk L)).set = _
  rw [View.set_slice]; exact Finset.map_refl
theorem oSet_eq (L : grid0.Coords) : oSet L = (oBlk L).set := by
  show ((View.whole (main_v1_scv : Ref sig .scVector)).slice (oBlk L)).set = _
  rw [View.set_slice]; exact Finset.map_refl

theorem off1_Lof (c : Fin 2) (i : Fin 16) : k0_off1 (Lof c i) 0 = 1024 * i.val + 512 * c.val := by
  rw [k0_off1_eq]; rfl
theorem off2_Lof0 (c : Fin 2) (i : Fin 16) : k0_off2 (Lof c i) 0 = 1024 * i.val + 512 * c.val := by
  rw [k0_off2_eq]; rfl
theorem off2_Lof1 (c : Fin 2) (i : Fin 16) : k0_off2 (Lof c i) 1 = 0 := by
  rw [k0_off2_eq]; rfl

theorem pair_ne {p p' : Fin 2 × Fin 16} (h : p ≠ p') : p.1.val ≠ p'.1.val ∨ p.2.val ≠ p'.2.val := by
  by_cases h1 : p.1.val = p'.1.val
  · exact Or.inr fun h2 => h (Prod.ext (Fin.ext h1) (Fin.ext h2))
  · exact Or.inl h1

theorem iblocks_disjoint : ∀ p ∈ (Finset.univ : Finset (Fin 2 × Fin 16)), ∀ p' ∈ (Finset.univ : Finset (Fin 2 × Fin 16)), p ≠ p' →
    Disjoint (iSet (Lof p.1 p.2)) (iSet (Lof p'.1 p'.2)) := by
  intro p _ p' _ h
  rw [iSet_eq, iSet_eq]
  refine Rect.unit_disjoint (0 : Fin 1) ?_
  rw [off1_Lof, off1_Lof]
  have := pair_ne h
  have h1 := p.1.isLt; have h2 := p'.1.isLt; have h3 := p.2.isLt; have h4 := p'.2.isLt
  show _ + 512 ≤ _ ∨ _ + 512 ≤ _
  omega

theorem oblocks_disjoint : ∀ p ∈ (Finset.univ : Finset (Fin 2 × Fin 16)), ∀ p' ∈ (Finset.univ : Finset (Fin 2 × Fin 16)), p ≠ p' →
    Disjoint (oSet (Lof p.1 p.2)) (oSet (Lof p'.1 p'.2)) := by
  intro p _ p' _ h
  rw [oSet_eq, oSet_eq]
  refine Rect.unit_disjoint (0 : Fin 2) ?_
  rw [off2_Lof0, off2_Lof0]
  have := pair_ne h
  have h1 := p.1.isLt; have h2 := p'.1.isLt; have h3 := p.2.isLt; have h4 := p'.2.isLt
  show _ + 512 ≤ _ ∨ _ + 512 ≤ _
  omega

/-- The block that holds row r: block r / 512, on SparseCore (r / 512) % 2, subcore (r / 512) / 2. -/
theorem block_of_row (r : Nat) (hr : r < 16384) :
    ∃ (c : Fin 2) (i : Fin 16), 1024 * i.val + 512 * c.val ≤ r ∧ r < 1024 * i.val + 512 * c.val + 512 :=
  ⟨⟨(r / 512) % 2, by omega⟩, ⟨(r / 512) / 2, by omega⟩, by show 1024 * ((r / 512) / 2) + 512 * ((r / 512) % 2) ≤ r; omega,
    by show r < 1024 * ((r / 512) / 2) + 512 * ((r / 512) % 2) + 512; omega⟩

theorem iblocks_cover : (Finset.univ : Finset (Fin 2 × Fin 16)).biUnion (fun p => iSet (Lof p.1 p.2)) = Finset.univ := by
  ext j
  simp only [Finset.mem_biUnion, Finset.mem_univ, true_and, iff_true]
  obtain ⟨c, i, h1, h2⟩ := block_of_row (j 0).val (j 0).isLt
  refine ⟨(c, i), ?_⟩
  rw [iSet_eq]
  refine Rect.mem_set_unit.mpr fun (a : Fin 1) => ?_
  obtain rfl : a = 0 := Subsingleton.elim _ _
  rw [off1_Lof]
  exact ⟨h1, h2⟩

theorem oblocks_cover : (Finset.univ : Finset (Fin 2 × Fin 16)).biUnion (fun p => oSet (Lof p.1 p.2)) = Finset.univ := by
  ext j
  simp only [Finset.mem_biUnion, Finset.mem_univ, true_and, iff_true]
  obtain ⟨c, i, h1, h2⟩ := block_of_row (j 0).val (j 0).isLt
  refine ⟨(c, i), ?_⟩
  rw [oSet_eq]
  refine Rect.mem_set_unit.mpr fun (a : Fin 2) => ?_
  match a with
  | ⟨0, _⟩ =>
    show k0_off2 (Lof c i) 0 ≤ (j 0).val ∧ (j 0).val < k0_off2 (Lof c i) 0 + 512
    rw [off2_Lof0]; exact ⟨h1, h2⟩
  | ⟨1, _⟩ =>
    show k0_off2 (Lof c i) 1 ≤ (j 1).val ∧ (j 1).val < k0_off2 (Lof c i) 1 + 128
    rw [off2_Lof1]; exact ⟨Nat.zero_le _, by have h128 : (j 1).val < 128 := (j 1).isLt; omega⟩

/-- The index array whole is its 32 blocks, SparseCore by SparseCore and subcore by subcore. -/
theorem iPts_blocks (d : Dev nD) (f : Buf (Elt F) (iLoc d)) :
    (iLoc d ↦{fullShare} f : sProp 𝕄)
      = bigSep Finset.univ fun c : Fin 2 => bigSep Finset.univ fun i : Fin 16 => (iLoc d ↦[iSet (Lof c i)]{fullShare} f : sProp 𝕄) := by
  refine Eq.trans ?_ (bigSep_univ_prod (fun p : Fin 2 × Fin 16 => (iLoc d ↦[iSet (Lof p.1 p.2)]{fullShare} f : sProp 𝕄)))
  rw [← pointsTo_biUnion Finset.univ (ℓ := iLoc d) (fun p : Fin 2 × Fin 16 => iSet (Lof p.1 p.2)) iblocks_disjoint, iblocks_cover]

/-- The row array whole is its 32 blocks. -/
theorem oPts_blocks (d : Dev nD) (f : Buf (Elt F) (oLoc d)) :
    (oLoc d ↦{fullShare} f : sProp 𝕄)
      = bigSep Finset.univ fun c : Fin 2 => bigSep Finset.univ fun i : Fin 16 => (oLoc d ↦[oSet (Lof c i)]{fullShare} f : sProp 𝕄) := by
  refine Eq.trans ?_ (bigSep_univ_prod (fun p : Fin 2 × Fin 16 => (oLoc d ↦[oSet (Lof p.1 p.2)]{fullShare} f : sProp 𝕄)))
  rw [← pointsTo_biUnion Finset.univ (ℓ := oLoc d) (fun p : Fin 2 × Fin 16 => oSet (Lof p.1 p.2)) oblocks_disjoint, oblocks_cover]

/-! ## What the handshakes carry -/

section Pay
variable [FloatOps F]

/-- The table's contents at the call, and what the row array ends at. -/
abbrev tbl (d : Dev nD) : Buf (Elt F) (tLoc d) := tableOf (m (aLoc d)) (m (bLoc d))
abbrev rowsAt (d : Dev nD) : Buf (Elt F) (oLoc d) := Cert.Lookup.lookupWide (tbl m d) (m (iLoc d))

/-- The table's read shares: one per SparseCore, and of that one per subcore. -/
abbrev qC (c : Fin 2) : PosShare TreeShare := Transfers.shareTok fullShare 2 c
abbrev qT (c : Fin 2) (i : Fin 16) : PosShare TreeShare := Transfers.shareTok (qC c) 16 i

/-- A SparseCore's sixteen blocks of the two arrays, the rows at f. -/
abbrev blocksPts (d : Dev nD) (c : Fin 2) (f : Buf (Elt F) (oLoc d)) : sProp 𝕄 :=
  bigSep Finset.univ fun i : Fin 16 => iprop(iBlkPts m d (Lof c i) ∗ oBlkPts d (Lof c i) f)

/-- The call hands SparseCore c its share of the table and its sixteen blocks, each subcore its block of the indices,
    its share of the table and its block of the rows; they come back with the rows at the wide lookup. -/
def P : (K (F := F)).Pay (nD := nD) (Val := Elt F) (Name := ℕ) (U := UU) where
  st := fun q d c => match q with
    | 0 => iprop(tShPts d (qC (Fin.cast nCore_zero c)) (tbl m d) ∗ blocksPts m d (Fin.cast nCore_zero c) (m (oLoc d)))
  dn := fun q d c => match q with
    | 0 => iprop(tShPts d (qC (Fin.cast nCore_zero c)) (tbl m d) ∗ blocksPts m d (Fin.cast nCore_zero c) (rowsAt m d))
  go := fun q d c i => match q with
    | 0 => iprop(iBlkPts m d (Lof (Fin.cast nCore_zero c) (Fin.cast nSub_zero i))
        ∗ tShPts d (qT (Fin.cast nCore_zero c) (Fin.cast nSub_zero i)) (tbl m d)
        ∗ oBlkPts d (Lof (Fin.cast nCore_zero c) (Fin.cast nSub_zero i)) (m (oLoc d)))
  td := fun q d c i => match q with
    | 0 => iprop(iBlkPts m d (Lof (Fin.cast nCore_zero c) (Fin.cast nSub_zero i))
        ∗ tShPts d (qT (Fin.cast nCore_zero c) (Fin.cast nSub_zero i)) (tbl m d)
        ∗ oBlkPts d (Lof (Fin.cast nCore_zero c) (Fin.cast nSub_zero i)) (rowsAt m d))
  x := fun _ _ => iprop(emp)

instance P_storable : (P (F := F) m).IsStorable where
  st q d c := match q with
    | 0 => (inferInstance : BI.Storable (upEmb : UEmb _ 𝕄)
        iprop(tShPts d (qC (Fin.cast nCore_zero c)) (tbl m d) ∗ blocksPts m d (Fin.cast nCore_zero c) (m (oLoc d))))
  dn q d c := match q with
    | 0 => (inferInstance : BI.Storable (upEmb : UEmb _ 𝕄)
        iprop(tShPts d (qC (Fin.cast nCore_zero c)) (tbl m d) ∗ blocksPts m d (Fin.cast nCore_zero c) (rowsAt m d)))
  go q d c i := match q with
    | 0 => (inferInstance : BI.Storable (upEmb : UEmb _ 𝕄)
        iprop(iBlkPts m d (Lof (Fin.cast nCore_zero c) (Fin.cast nSub_zero i))
          ∗ tShPts d (qT (Fin.cast nCore_zero c) (Fin.cast nSub_zero i)) (tbl m d)
          ∗ oBlkPts d (Lof (Fin.cast nCore_zero c) (Fin.cast nSub_zero i)) (m (oLoc d))))
  td q d c i := match q with
    | 0 => (inferInstance : BI.Storable (upEmb : UEmb _ 𝕄)
        iprop(iBlkPts m d (Lof (Fin.cast nCore_zero c) (Fin.cast nSub_zero i))
          ∗ tShPts d (qT (Fin.cast nCore_zero c) (Fin.cast nSub_zero i)) (tbl m d)
          ∗ oBlkPts d (Lof (Fin.cast nCore_zero c) (Fin.cast nSub_zero i)) (rowsAt m d)))

/-- What the proof asks of the launch memory: every index names a row of the table. -/
def PreOK : Prop := ∀ (d : Dev nD) (j : S16384.Idx), (m (iLoc d) j).toNat < 1000000

/-! ## The launch theorem's obligations -/

theorem defs₀_vector (c : Fin τ.nSC) (s : Fin τ.nSub) :
    defs₀ (F := F) (.scVector c s) 0 ()
      = SparseCore.onTile hcore0 hsub0 (fun c s => cc0__body (coordsV c s)
          iV (Memref.isWhole_whole _) tV (Memref.isWhole_whole _) oV (Memref.isWhole_whole _)
          sI (Memref.isWhole_whole _) sR (Memref.isWhole_whole _) cc0_scratch2 cc0_scratch3 cc0_scratch4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF _ _ _ (hpre d) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's share of the table splits into its subcores' shares and a remainder, which waits with the sequencer
    and is joined back when the shares return. -/
theorem vecSplit : (K (F := F)).VecSplit' (P m) 0 := by
  intro d c
  show iprop(tShPts d (qC (Fin.cast nCore_zero c)) (tbl m d) ∗ blocksPts m d (Fin.cast nCore_zero c) (m (oLoc d))) ⊢ |={Set.univ}=> iprop(
      (bigSep Finset.univ fun i : Fin ((K (F := F)).nSub 0) =>
        iprop(iBlkPts m d (Lof (Fin.cast nCore_zero c) (Fin.cast nSub_zero i))
          ∗ tShPts d (qT (Fin.cast nCore_zero c) (Fin.cast nSub_zero i)) (tbl m d)
          ∗ oBlkPts d (Lof (Fin.cast nCore_zero c) (Fin.cast nSub_zero i)) (m (oLoc d))))
      ∗ ((bigSep Finset.univ fun i : Fin ((K (F := F)).nSub 0) =>
          iprop(iBlkPts m d (Lof (Fin.cast nCore_zero c) (Fin.cast nSub_zero i))
            ∗ tShPts d (qT (Fin.cast nCore_zero c) (Fin.cast nSub_zero i)) (tbl m d)
            ∗ oBlkPts d (Lof (Fin.cast nCore_zero c) (Fin.cast nSub_zero i)) (rowsAt m d)))
          -∗ iprop(tShPts d (qC (Fin.cast nCore_zero c)) (tbl m d) ∗ blocksPts m d (Fin.cast nCore_zero c) (rowsAt m d))))
  generalize Fin.cast nCore_zero c = c'
  rw [bigSep_tasks (F := F) (fun i => iprop(iBlkPts m d (Lof c' i) ∗ tShPts d (qT c' i) (tbl m d) ∗ oBlkPts d (Lof c' i) (m (oLoc d)))),
    bigSep_tasks (F := F) (fun i => iprop(iBlkPts m d (Lof c' i) ∗ tShPts d (qT c' i) (tbl m d) ∗ oBlkPts d (Lof c' i) (rowsAt m d))),
    bigSep_sep', bigSep_sep', bigSep_sep', bigSep_sep']
  show iprop(tShPts d (qC c') (tbl m d) ∗ bigSep Finset.univ fun i : Fin 16 => iprop(iBlkPts m d (Lof c' i) ∗ oBlkPts d (Lof c' i) (m (oLoc d)))) ⊢ |={Set.univ}=> iprop(_ ∗ (_ -∗
    iprop(tShPts d (qC c') (tbl m d) ∗ bigSep Finset.univ fun i : Fin 16 => iprop(iBlkPts m d (Lof c' i) ∗ oBlkPts d (Lof c' i) (rowsAt m d)))))
  rw [bigSep_sep', bigSep_sep']
  iintro ⟨Ht, Hi, Ho⟩
  ihave Hts := (Transfers.pointsTo_toks_split (qC c') 16) $$ Ht
  icases Hts with ⟨Hdrop, Htoks⟩
  imodintro
  isplitl [Hi Htoks Ho]
  · isplitl [Hi]; · iexact Hi
    isplitl [Htoks]; · iexact Htoks
    iexact Ho
  iintro ⟨Hi, Htoks, Ho⟩
  isplitl [Hdrop Htoks]
  · iapply (Transfers.pointsTo_toks_join (qC c') 16)
    isplitl [Hdrop]; · iexact Hdrop
    iexact Htoks
  isplitl [Hi]; · iexact Hi
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Pay

/-! ## @main on the TensorCore -/

section Main
variable [FloatOps F]

abbrev a' : DevRef τ sig := Proc.devRef .tc (main_arg1 : Ref sig .tc)
abbrev b' : DevRef τ sig := Proc.devRef .tc (main_arg2 : Ref sig .tc)
abbrev t' : DevRef τ sig := Proc.devRef .tc (main_v0 : Ref sig .tc)
abbrev o' : DevRef τ sig := Proc.devRef .tc (main_v1 : Ref sig .tc)
abbrev p' : DevRef τ sig := Proc.devRef .tc (main_v2 : Ref sig .tc)
abbrev q' : DevRef τ sig := Proc.devRef .tc (main_v3 : Ref sig .tc)

/-- The three host operations: the tables side by side; the left and the right 64 columns of the gathered rows. -/
abbrev opCat : HloOp τ sig (Elt F) := StableHlo.binary main_arg1 main_arg2 main_v0
  (fun a b => concatenate S1000000x128 1 [⟨S1000000x64, a⟩, ⟨S1000000x64, b⟩] concatenates_S1000000x64_S1000000x64_S1000000x128_d1)
abbrev opL : HloOp τ sig (Elt F) := StableHlo.unary main_v1 main_v2 (extractStridedSlice S16384x64 ![0, 0] · slices_S16384x128_S16384x64_0_0)
abbrev opR : HloOp τ sig (Elt F) := StableHlo.unary main_v1 main_v3 (extractStridedSlice S16384x64 ![0, 64] · slices_S16384x128_S16384x64_0_64)

/-- The two results: the left and the right halves of the gathered rows. -/
abbrev resL (d : Dev nD) : Buf (Elt F) (pLoc d) := extractStridedSlice S16384x64 ![0, 0] (rowsAt m d) slices_S16384x128_S16384x64_0_0
abbrev resR (d : Dev nD) : Buf (Elt F) (qLoc d) := extractStridedSlice S16384x64 ![0, 64] (rowsAt m d) slices_S16384x128_S16384x64_0_64

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (aLoc d ↦{fullShare} W main_arg1) ∗ (bLoc d ↦{fullShare} W main_arg2)
      ∗ (tLoc d ↦{fullShare} W main_v0) ∗ (oLoc d ↦{fullShare} W main_v1) ∗ (pLoc d ↦{fullShare} W main_v2) ∗ qLoc d ↦{fullShare} W main_v3) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem held_abt (d : Dev nD) (W : Valuation τ sig (Elt F)) :
    (held (T d) ({a', b', t'} : Finset (DevRef τ sig)) W : sProp 𝕄)
      = iprop((aLoc d ↦{fullShare} W a') ∗ (bLoc d ↦{fullShare} W b') ∗ tLoc d ↦{fullShare} W t') := by
  unfold held
  rw [SparseCore.bigSep_insert' (by decide), SparseCore.bigSep_insert' (by decide), bigSep_singleton]
omit [FloatOps F] in
theorem held_op (d : Dev nD) (W : Valuation τ sig (Elt F)) :
    (held (T d) ({o', p'} : Finset (DevRef τ sig)) W : sProp 𝕄) = iprop((oLoc d ↦{fullShare} W o') ∗ pLoc d ↦{fullShare} W p') := by
  unfold held
  rw [SparseCore.bigSep_insert' (by decide), bigSep_singleton]
omit [FloatOps F] in
theorem held_oq (d : Dev nD) (W : Valuation τ sig (Elt F)) :
    (held (T d) ({o', q'} : Finset (DevRef τ sig)) W : sProp 𝕄) = iprop((oLoc d ↦{fullShare} W o') ∗ qLoc d ↦{fullShare} W q') := by
  unfold held
  rw [SparseCore.bigSep_insert' (by decide), bigSep_singleton]

/-- The launch valuation; and the one with the gathered rows in place. -/
def V0 (d : Dev nD) : Valuation τ sig (Elt F) := fun b => m (d, b)
def V1 (d : Dev nD) : Valuation τ sig (Elt F) := Function.update (V0 m d) o' (rowsAt m d)

theorem V1_o (d : Dev nD) : V1 m d o' = rowsAt m d := Function.update_self _ _ _
theorem V1_p (d : Dev nD) : V1 m d p' = m (pLoc d) := Function.update_of_ne (show p' ≠ o' by decide) _ _
theorem V1_q (d : Dev nD) : V1 m d q' = m (qLoc d) := Function.update_of_ne (show q' ≠ o' by decide) _ _

theorem hCat : (opCat (F := F)).bufs ⊆ ({a', b', t'} : Finset (DevRef τ sig)) :=
  show ({a', b', t'} : Finset (DevRef τ sig)) ⊆ {a', b', t'} by decide
theorem hL : (opL (F := F)).bufs ⊆ ({o', p'} : Finset (DevRef τ sig)) :=
  show ({o', p'} : Finset (DevRef τ sig)) ⊆ {o', p'} by decide
theorem hR : (opR (F := F)).bufs ⊆ ({o', q'} : Finset (DevRef τ sig)) :=
  show ({o', q'} : Finset (DevRef τ sig)) ⊆ {o', q'} by decide

theorem held_cat (d : Dev nD) :
    (held (T d) ({a', b', t'} : Finset (DevRef τ sig)) ((opCat (F := F)).result (V0 m d)) : sProp 𝕄)
      = iprop((aLoc d ↦{fullShare} m (aLoc d)) ∗ (bLoc d ↦{fullShare} m (bLoc d)) ∗ tLoc d ↦{fullShare} tbl m d) := by
  rw [held_abt, (opCat (F := F)).result_of_not_mem (V0 m d) (b := a') (show a' ∉ ({t'} : Finset (DevRef τ sig)) by decide),
    (opCat (F := F)).result_of_not_mem (V0 m d) (b := b') (show b' ∉ ({t'} : Finset (DevRef τ sig)) by decide)]
  rw [show (opCat (F := F)).result (V0 m d) t' = tbl m d from StableHlo.binary_result _ _ _ _ _ _ _ _]
  rfl
theorem held_L (d : Dev nD) :
    (held (T d) ({o', p'} : Finset (DevRef τ sig)) ((opL (F := F)).result (V1 m d)) : sProp 𝕄)
      = iprop((oLoc d ↦{fullShare} rowsAt m d) ∗ pLoc d ↦{fullShare} resL m d) := by
  rw [held_op, (opL (F := F)).result_of_not_mem (V1 m d) (b := o') (show o' ∉ ({p'} : Finset (DevRef τ sig)) by decide), V1_o]
  rw [show (opL (F := F)).result (V1 m d) p' = resL m d from (StableHlo.unary_result _ _ _ _ _ _).trans (by rw [V1_o])]
theorem held_R (d : Dev nD) :
    (held (T d) ({o', q'} : Finset (DevRef τ sig)) ((opR (F := F)).result (V1 m d)) : sProp 𝕄)
      = iprop((oLoc d ↦{fullShare} rowsAt m d) ∗ qLoc d ↦{fullShare} resR m d) := by
  rw [held_oq, (opR (F := F)).result_of_not_mem (V1 m d) (b := o') (show o' ∉ ({q'} : Finset (DevRef τ sig)) by decide), V1_o]
  rw [show (opR (F := F)).result (V1 m d) q' = resR m d from (StableHlo.unary_result _ _ _ _ _ _).trans (by rw [V1_o])]

/-- The SparseCores' holdings, regrouped: the table's shares, the index blocks, the row blocks at f. -/
theorem cores_eq (d : Dev nD) (f : Buf (Elt F) (oLoc d)) :
    (bigSep Finset.univ fun c : Fin ((K (F := F)).nCore 0) =>
        iprop(tShPts d (qC (Fin.cast nCore_zero c)) (tbl m d) ∗ blocksPts m d (Fin.cast nCore_zero c) f))
      = iprop((bigSep Finset.univ fun c : Fin 2 => tShPts d (qC c) (tbl m d))
          ∗ (bigSep Finset.univ fun c : Fin 2 => bigSep Finset.univ fun i : Fin 16 => iBlkPts m d (Lof c i))
          ∗ (bigSep Finset.univ fun c : Fin 2 => bigSep Finset.univ fun i : Fin 16 => oBlkPts d (Lof c i) f)) := by
  rw [bigSep_cores (F := F) (fun c => iprop(tShPts d (qC c) (tbl m d) ∗ blocksPts m d c f)), bigSep_sep']
  refine congrArg (fun X : sProp 𝕄 => iprop((bigSep Finset.univ fun c : Fin 2 => tShPts d (qC c) (tbl m d)) ∗ X)) ?_
  show (bigSep Finset.univ fun c : Fin 2 => bigSep Finset.univ fun i : Fin 16 => iprop(iBlkPts m d (Lof c i) ∗ oBlkPts d (Lof c i) f)) = _
  rw [bigSep_congr (fun c _ => bigSep_sep' Finset.univ (fun i : Fin 16 => iBlkPts m d (Lof c i)) (fun i : Fin 16 => oBlkPts d (Lof c i) f)), bigSep_sep']

/-- Before the call: the table's full share into the SparseCores' read shares and a remainder, the two arrays into
    their blocks. -/
theorem call_split (d : Dev nD) :
    iprop((tLoc d ↦{fullShare} tbl m d) ∗ (iLoc d ↦{fullShare} m (iLoc d)) ∗ (oLoc d ↦{fullShare} m (oLoc d)))
      ⊢ (iprop((tLoc d ↦{Transfers.shareDrop fullShare 2} tbl m d) ∗ bigSep Finset.univ fun c : Fin ((K (F := F)).nCore 0) => (P m).st 0 d c) : sProp 𝕄) := by
  show _ ⊢ iprop(_ ∗ bigSep Finset.univ fun c : Fin ((K (F := F)).nCore 0) =>
    iprop(tShPts d (qC (Fin.cast nCore_zero c)) (tbl m d) ∗ blocksPts m d (Fin.cast nCore_zero c) (m (oLoc d))))
  rw [cores_eq]
  iintro ⟨Ht, Hi, Ho⟩
  ihave Hts := (Transfers.pointsTo_toks_split fullShare 2) $$ Ht
  icases Hts with ⟨Hdrop, Htoks⟩
  ihave Hi' := (Entails.of_eq (iPts_blocks (F := F) d _)) $$ Hi
  ihave Ho' := (Entails.of_eq (oPts_blocks (F := F) d _)) $$ Ho
  isplitl [Hdrop]; · iexact Hdrop
  isplitl [Htoks]; · iexact Htoks
  isplitl [Hi']; · iexact Hi'
  iexact Ho'

/-- After the call: the shares joined back to the full share, the blocks to the arrays, the rows at the wide lookup. -/
theorem call_join (d : Dev nD) :
    (iprop((tLoc d ↦{Transfers.shareDrop fullShare 2} tbl m d) ∗ bigSep Finset.univ fun c : Fin ((K (F := F)).nCore 0) => (P m).dn 0 d c) : sProp 𝕄)
      ⊢ iprop((tLoc d ↦{fullShare} tbl m d) ∗ (iLoc d ↦{fullShare} m (iLoc d)) ∗ (oLoc d ↦{fullShare} rowsAt m d)) := by
  show iprop(_ ∗ bigSep Finset.univ fun c : Fin ((K (F := F)).nCore 0) =>
    iprop(tShPts d (qC (Fin.cast nCore_zero c)) (tbl m d) ∗ blocksPts m d (Fin.cast nCore_zero c) (rowsAt m d))) ⊢ _
  rw [cores_eq]
  iintro ⟨Hdrop, Htoks, Hi, Ho⟩
  isplitl [Hdrop Htoks]
  · iapply (Transfers.pointsTo_toks_join fullShare 2)
    isplitl [Hdrop]; · iexact Hdrop
    iexact Htoks
  isplitl [Hi]
  · iapply (Entails.of_eq (iPts_blocks (F := F) d _).symm); iexact Hi
  iapply (Entails.of_eq (oPts_blocks (F := F) d _).symm); iexact Ho

/-- What @main leaves the claim: the arguments at their launch contents, the two results at the two halves. -/
abbrev FIN (d : Dev nD) : sProp 𝕄 :=
  iprop((iLoc d ↦{fullShare} m (iLoc d)) ∗ (aLoc d ↦{fullShare} m (aLoc d)) ∗ (bLoc d ↦{fullShare} m (bLoc d))
    ∗ (pLoc d ↦{fullShare} resL m d) ∗ qLoc d ↦{fullShare} resR m d)

/-- @main on device d's TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Ha, Hbb, Ht, Ho, Hp, Hq⟩, -, -⟩, -⟩
  -- the two tables side by side
  iapply (wp_hlo_within 𝒱 (SparseCore.T d) none Set.univ (op := opCat) (S := ({a', b', t'} : Finset (DevRef τ sig))) hCat (V := V0 m d)) $$ [Hb Ha Hbb Ht]
  · isplitl [Hb]; · iexact Hb
    rw [held_abt]
    isplitl [Ha]; · iexact Ha
    isplitl [Hbb]; · iexact Hbb
    iexact Ht
  iintro ⟨Hb, Hheld⟩
  ihave Hh := (Entails.of_eq (held_cat (F := F) m d)) $$ Hheld
  icases Hh with ⟨Ha, Hbb, Ht⟩
  rw [wp_ret]; imodintro
  -- the call: each SparseCore its share of the table and its blocks, and back
  ihave Hs := (call_split (F := F) m d) $$ [Ht Hi Ho]
  · isplitl [Ht]; · iexact Ht
    isplitl [Hi]; · iexact Hi
    iexact Ho
  icases Hs with ⟨Hdrop, Hsts⟩
  iapply ((K (F := F)).wp_run (D (F := F)) 𝒱 (EH := EH) (P := P m) κ d 0) $$ [Hst Hsts Hdrop Hb Ha Hbb Hp Hq]
  isplitr; · iexact Hctx
  isplitl [Hst]; · iexact Hst
  isplitl [Hsts]; · iexact Hsts
  iintro ⟨Hst, Hdn⟩
  ihave Hj := (call_join (F := F) m d) $$ [Hdrop Hdn]
  · isplitl [Hdrop]; · iexact Hdrop
    iexact Hdn
  icases Hj with ⟨Ht, Hi, Ho⟩
  -- the left 64 columns
  iapply (wp_hlo_within 𝒱 (SparseCore.T d) none Set.univ (op := opL) (S := ({o', p'} : Finset (DevRef τ sig))) hL (V := V1 m d)) $$ [Hb Ho Hp]
  · isplitl [Hb]; · iexact Hb
    rw [held_op, V1_o, V1_p]
    isplitl [Ho]; · iexact Ho
    iexact Hp
  iintro ⟨Hb, Hheld⟩
  ihave Hh := (Entails.of_eq (held_L (F := F) m d)) $$ Hheld
  icases Hh with ⟨Ho, Hp⟩
  rw [wp_ret]; imodintro
  -- the right 64 columns
  iapply (wp_hlo_within 𝒱 (SparseCore.T d) none Set.univ (op := opR) (S := ({o', q'} : Finset (DevRef τ sig))) hR (V := V1 m d)) $$ [Hb Ho Hq]
  · isplitl [Hb]; · iexact Hb
    rw [held_oq, V1_o, V1_q]
    isplitl [Ho]; · iexact Ho
    iexact Hq
  iintro ⟨Hb, Hheld⟩
  ihave Hh := (Entails.of_eq (held_R (F := F) m d)) $$ Hheld
  icases Hh with ⟨Ho, Hq⟩
  rw [wp_ret]; imodintro; imodintro
  isplitl [Hst]; · iexact Hst
  isplitl [Hi]; · iexact Hi
  isplitl [Ha]; · iexact Ha
  isplitl [Hbb]; · iexact Hbb
  isplitl [Hp]; · iexact Hp
  iexact Hq

def fq (d : Dev nD) (s' : Phys nD τ sig (Elt F)) : Prop :=
  s'.mem.mem (iLoc d) = m (iLoc d) ∧ s'.mem.mem (aLoc d) = m (aLoc d) ∧ s'.mem.mem (bLoc d) = m (bLoc d)
    ∧ s'.mem.mem (pLoc d) = resL m d ∧ s'.mem.mem (qLoc d) = resR m d

theorem hfin (d : Dev nD) (s' : Phys nD τ sig (Elt F)) : iprop(FIN m d ∗ SI s') ⊢ (⌜fq m d s'⌝ : sProp 𝕄) := by
  iintro ⟨⟨Hi, Ha, Hb, Hp, Hq⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h3, HSI, -⟩
  ihave H := (persistent_entails_right (SI_pointsTo_agree (st := s') (ℓ := pLoc d) (I := Finset.univ) (q := fullShare) (f := resL m d))) $$ [HSI Hp]
  · isplitl [HSI] <;> iassumption
  icases H with ⟨%h4, HSI, -⟩
  ihave H := (SI_pointsTo_agree (st := s') (ℓ := qLoc d) (I := Finset.univ) (q := fullShare) (f := resR m d)) $$ [HSI Hq]
  · isplitl [HSI] <;> iassumption
  icases H with %h5
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i)⟩

/-! ## The program's run -/

def QC : PUnit × MemSt nD τ sig (Elt F) → Prop := fun r => ∀ c : Dev nD,
  r.2.mem (iLoc c) = m (iLoc c) ∧ r.2.mem (aLoc c) = m (aLoc c) ∧ r.2.mem (bLoc c) = m (bLoc c)
    ∧ r.2.mem (pLoc c) = resL m c ∧ r.2.mem (qLoc c) = resR m c

/-- Every weakly fair execution of the device's threads ends, nothing faulting, with the arguments unchanged and the two
    results the two halves of the wide lookup of the side-by-side table. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Main

end Cert.Proof.KernelRun

end
-- ==== Proof.KernelIdealSetup.lean ====
/-
  An embedding lookup on the SparseCores, as the launch theorem sees it.

  The two tables W0, W1 : [1000000, 64] are laid side by side into one table of 128 columns; the 16384 indices are cut
  into 32 consecutive blocks of 512, one per vector subcore (subcore s of SparseCore c takes block 2·s + c); each
  subcore copies its block of indices into its own memory, gathers the 512 table rows they name, and copies those
  rows out to the same block of rows of a [16384, 128] array, whose left and right halves are the two results.

  This module fixes the vocabulary: the blocks (as rectangles of the index array and of the row array, stated through
  the program's own offset functions) and the table's contents; the ONE whole-array function the row array ends at
  (row b, column j ↦ table row idx[b], column j) is the wide lookup of the specification.
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«204638_g89515708383799_cont_9to1_m_1121_23_alg».proof.Proof.Gen.KernelIdeal
import proofs.«204638_g89515708383799_cont_9to1_m_1121_23_alg».proof.Proof.Gen.KernelIdeal.Skeleton
import proofs.«204638_g89515708383799_cont_9to1_m_1121_23_alg».proof.Proof.LookupSpec

noncomputable section

namespace Cert.Proof.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays -/

/-- The indices, the two tables, the table of 128 columns, the gathered rows, the two results: as locations of device d. -/
abbrev iLoc (d : Dev nD) : Loc nD τ sig := (SparseCore.T d).loc main_arg0
abbrev aLoc (d : Dev nD) : Loc nD τ sig := (SparseCore.T d).loc main_arg1
abbrev bLoc (d : Dev nD) : Loc nD τ sig := (SparseCore.T d).loc main_arg2
abbrev tLoc (d : Dev nD) : Loc nD τ sig := (SparseCore.T d).loc main_v0
abbrev oLoc (d : Dev nD) : Loc nD τ sig := (SparseCore.T d).loc main_v1
abbrev pLoc (d : Dev nD) : Loc nD τ sig := (SparseCore.T d).loc main_v2
abbrev qLoc (d : Dev nD) : Loc nD τ sig := (SparseCore.T d).loc main_v3

/-- A subcore's grid coordinates from its SparseCore and its number there. -/
def coordsV (c : Fin (grid0.bound 0)) (s : Fin (grid0.bound 1)) : grid0.Coords :=
  fun | 0 => c | 1 => s | ⟨_ + 2, h⟩ => absurd h (Nat.not_lt.2 (Nat.le_add_left _ _))

/-- The block of 512 indices, and of 512 rows, that the subcore at grid point L works on. -/
abbrev iBlk (L : grid0.Coords) : Rect S16384 := Rect.unit (s := S16384) (k0_off1 L) S512.size (k0_off1_inb L)
abbrev oBlk (L : grid0.Coords) : Rect S16384x128 := Rect.unit (s := S16384x128) (k0_off2 L) S512x128.size (k0_off2_inb L)

/-! ## The values -/

section Values
variable [FloatOps F]

/-- The two tables side by side. -/
def tableOf (a b : S1000000x64.Idx → Elt F .f32) : S1000000x128.Idx → Elt F .f32 :=
  concatenate S1000000x128 1 [⟨S1000000x64, a⟩, ⟨S1000000x64, b⟩] concatenates_S1000000x64_S1000000x64_S1000000x128_d1

end Values

end Cert.Proof.KernelIdealRun

end
-- ==== Proof.KernelIdealTile.lean ====
/-
  ONE SUBCORE'S TASK.

  The subcore at grid point L holds: its block of 512 indices (block 2·s + c of the index array), a read share of the
  whole table, its block of 512 rows of the row array, its two scratch buffers and its three DMA semaphores at zero.
  It copies the index block into its index scratch and waits; gathers the table rows the scratch names into its row
  scratch and waits; copies the row scratch out to its block of rows and waits. Each copy has a semaphore of its own
  and is waited for before the next begins, so no buffer is touched while a copy that reads or writes it is pending.

  The gather needs every offset it reads to name a table row: the offsets are the index block as the first copy
  landed it, and the indices are below 1000000 by hypothesis.

  What the block of rows ends at is the specification's wide lookup, place by place: the place (b, j) of the block
  is row off + b of the array; the copy out put there the row scratch's (b, j); the gather put there the table's
  (list[b], j); the list's b-th word is index off + b.
-/
import proofs.«204638_g89515708383799_cont_9to1_m_1121_23_alg».proof.Proof.KernelIdealSetup
import proofs.«204638_g89515708383799_cont_9to1_m_1121_23_alg».proof.Proof.LibDelivered

noncomputable section

namespace Cert.Proof.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_arg0_scv : Memref Cert.KernelIdeal.sig Kind.scVector Space.hbm Cert.KernelIdeal.S16384 EltTy.i32)
local notation "tV" => (Memref.whole Cert.KernelIdeal.main_v0_scv : Memref Cert.KernelIdeal.sig Kind.scVector Space.hbm Cert.KernelIdeal.S1000000x128 EltTy.f32)
local notation "oV" => (Memref.whole Cert.KernelIdeal.main_v1_scv : Memref Cert.KernelIdeal.sig Kind.scVector Space.hbm Cert.KernelIdeal.S16384x128 EltTy.f32)
local notation "sI" => (Memref.whole Cert.KernelIdeal.cc0_scratch0 : Memref Cert.KernelIdeal.sig Kind.scVector Space.vmem Cert.KernelIdeal.S512 EltTy.i32)
local notation "sR" => (Memref.whole Cert.KernelIdeal.cc0_scratch1 : Memref Cert.KernelIdeal.sig Kind.scVector Space.vmem Cert.KernelIdeal.S512x128 EltTy.f32)

/-! ## A subcore's task -/

variable (m : (ℓ : Loc nD τ sig) → Buf (Elt F) ℓ)

abbrev cV (L : grid0.Coords) : Fin τ.nSC := (L 0).castLE hcore0
abbrev jV (L : grid0.Coords) : Fin τ.nSub := (L 1).castLE hsub0

/-- The subcore's block of the index array and of the row array, as the program slices them. -/
abbrev iSl (L : grid0.Coords) : Memref sig .scVector .hbm S512 .i32 := (iV).slice (iBlk L) (fun _ => rfl)
abbrev oSl (L : grid0.Coords) : Memref sig .scVector .hbm S512x128 .f32 := (oV).slice (oBlk L) (fun _ => rfl)
abbrev iSet (L : grid0.Coords) : Finset S16384.Idx := (iSl L).view.set
abbrev oSet (L : grid0.Coords) : Finset S16384x128.Idx := (oSl L).view.set

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scratch3.sem)
abbrev cCcell (d : Dev nD) (c : Fin τ.nSC) (i : Fin τ.nSub) : GSem nD τ sig := (V d c i, .dma cc0_scratch4.sem)

/-- What a subcore is handed: its block of the indices, a read share of the whole table, its block of the rows. -/
abbrev iBlkPts (d : Dev nD) (L : grid0.Coords) : sProp 𝕄 := iLoc d ↦[iSet L]{fullShare} m (iLoc d)
abbrev tShPts (d : Dev nD) (q : PosShare TreeShare) (t : Buf (Elt F) (tLoc d)) : sProp 𝕄 := tLoc d ↦{q} t
abbrev oBlkPts (d : Dev nD) (L : grid0.Coords) (f : Buf (Elt F) (oLoc d)) : sProp 𝕄 := oLoc d ↦[oSet L]{fullShare} f

section Tile
variable (d : Dev nD) (L : grid0.Coords)

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch3.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scratch4.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F]

/-- The offsets the gather reads are in range: what the index copy landed in the list's buffer is the subcore's block
    of the indices, each word below the table's 1000000 rows. -/
theorem list_inb (hpre : ∀ j, (m (iLoc d) j).toNat < 1000000) (g : Buf (Elt F) ((V d (cV L) (jV L)).loc cc0_scratch0)) :
    ∀ x, ((sI).view.read (Elt F) (View.write (Elt F) (sI).view g
        ((ReadAs.same : ReadAs (Elt F) S512 .i32 S512 .i32).apply ((iSl L).view.read (Elt F) (m (iLoc d)))) Finset.univ) x).toNat
      < S1000000x128.size gathers_S1000000x128_S512x128.axis := by
  intro x
  rw [ReadAs.apply_same, View.write_whole_univ]
  simp only [Memref.view_whole, View.read_whole]
  rw [show ∀ j, (iSl L).view.read (Elt F) (m (iLoc d)) j = m (iLoc d) ((iSl L).view.emb j) from fun j => (View.read_apply _ _).trans (cast_eq _ _)]
  exact hpre _

/-- The whole table, as the program slices it (offset zero, full size) for the gather. -/
abbrev tAll : Memref sig .scVector .hbm S1000000x128 .f32 :=
  (tV).slice (Rect.unit (s := S1000000x128) ![0, 0] S1000000x128.size inb_S1000000x128_S1000000x128_0_0) (fun _ => rfl)

/-- WHAT THE SUBCORE LEAVES IN ITS BLOCK OF ROWS: the index copy lands the block's 512 indices, the gather lands the
    table rows they name, the copy out lands those rows on the block; at every place of the block that is the table's
    row named by the index of the place's own row, at the place's column. -/
theorem delivered (fi : Buf (Elt F) (iLoc d)) (t : Buf (Elt F) (tLoc d)) (fo : Buf (Elt F) (oLoc d))
    (fs : Buf (Elt F) ((V d (cV L) (jV L)).loc cc0_scratch0)) (fr : Buf (Elt F) ((V d (cV L) (jV L)).loc cc0_scratch1))
    (hpre : ∀ j, (fi j).toNat < 1000000) (hn : S512.numel = S512x128.size gathers_S1000000x128_S512x128.axis')
    (hin : ∀ x, ((sI).view.read (Elt F) (View.write (Elt F) (sI).view fs
      ((ReadAs.same : ReadAs (Elt F) S512 .i32 S512 .i32).apply ((iSl L).view.read (Elt F) fi)) Finset.univ) x).toNat
        < S1000000x128.size gathers_S1000000x128_S512x128.axis)
    {j : S16384x128.Idx} (hj : j ∈ (oSl L).view.set) :
    (oSl L).view.writes (Elt F) fo [⟨Rect.whole S512x128, (ReadAs.same : ReadAs (Elt F) S512x128 .f32 S512x128 .f32).apply ((sR).view.read (Elt F) ((sR).view.writes (Elt F) fr
        [⟨Rect.whole _, SparseCore.gatherPayload gathers_S1000000x128_S512x128 ((tAll).view.read (Elt F) t)
          (SparseCore.rows ((sI).view.read (Elt F) (View.write (Elt F) (sI).view fs
            ((ReadAs.same : ReadAs (Elt F) S512 .i32 S512 .i32).apply ((iSl L).view.read (Elt F) fi)) Finset.univ)) hn hin)⟩]))⟩] j
      = Cert.Lookup.lookupWide t fi j := by
  obtain ⟨x, rfl, hx⟩ := Cert.LibDelivered.writes_whole_at (oSl L).view fo _ hj
  rw [hx]
  obtain ⟨b, c, rfl⟩ : ∃ (b : Fin 512) (c : Fin 128), x = ix2 b c := ⟨x 0, x 1, eq_ix2 x⟩
  refine (cast_eq _ _).trans ?_
  rw [ReadAs.apply_same]
  refine (Cert.LibDelivered.read_gathered (F := F) (sR).view fr gathers_S1000000x128_S512x128 ((tAll).view.read (Elt F) t) _ hn hin b c b.isLt).trans ?_
  have hT : ∀ k, (tAll).view.read (Elt F) t k = t ((tAll).view.emb k) := fun k => (View.read_apply _ _).trans (cast_eq _ _)
  rw [hT]
  unfold Cert.Lookup.lookupWide
  refine congrArg t ?_
  have hTe : ∀ k : S1000000x128.Idx, (tAll).view.emb k = k := by
    intro k; funext a; apply Fin.ext
    match a with
    | ⟨0, _⟩ => show 0 + 1 * (k 0).val = (k 0).val; omega
    | ⟨1, _⟩ => show 0 + 1 * (k 1).val = (k 1).val; omega
  rw [hTe]
  have hI : ∀ k, (iSl L).view.read (Elt F) fi k = fi ((iSl L).view.emb k) := fun k => (View.read_apply _ _).trans (cast_eq _ _)
  have he : (iSl L).view.emb (ix1 ⟨b.val, b.isLt⟩) = ix1 ((oSl L).view.emb (ix2 b c) 0) := by
    refine funext fun (a : Fin 1) => ?_
    obtain rfl : a = 0 := Subsingleton.elim _ _
    apply Fin.ext
    show k0_off1 L 0 + 1 * b.val = k0_off2 L 0 + 1 * b.val
    rw [k0_off1_eq, k0_off2_eq]; rfl
  refine congrArg₂ ix2 (Fin.ext ?_) (Fin.ext ?_)
  · show BitVec.toNat _ = _
    rw [Cert.LibDelivered.read_copy_apply, hI, he]
    exact (Cert.Lookup.rowOf_val (hpre _)).symm
  · show c.val = k0_off2 L 1 + 1 * c.val
    rw [k0_off2_eq]; simp

theorem tile_body (hF : (K (F := F)).Facts) (q : PosShare TreeShare) (t : Buf (Elt F) (tLoc d)) (fo : Buf (Elt F) (oLoc d))
    (hpre : ∀ j, (m (iLoc d) j).toNat < 1000000)
    (O : CellTallies nD τ sig (HIx 1)) (W : Waits sig (HIx 1)) (hO : ∀ g, O g none = 0) :
    iprop(levAts (K (F := F)).L (K (F := F)).lev ∗ emp
        ∗ (iBlkPts m d L ∗ tShPts d q t ∗ oBlkPts d L fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L iV (Memref.isWhole_whole _) tV (Memref.isWhole_whole _) oV (Memref.isWhole_whole _)
            sI (Memref.isWhole_whole _) sR (Memref.isWhole_whole _) cc0_scratch2 cc0_scratch3 cc0_scratch4)
          fun _ => iprop((iBlkPts m d L ∗ tShPts d q t ∗ oBlkPts d L (Cert.Lookup.lookupWide t (m (iLoc d))))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__body_eq_skeleton]; unfold cc0__body_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemA, HsemB, HsemC, Hsems⟩, HO⟩
  ihave Hmw := ((K (F := F)).mayWaits_none (thr := V d (cV L) (jV L)) hO) $$ Hlv
  ihave Hi' := (Entails.of_eq (show (iLoc d ↦[iSet L]{fullShare} m (iLoc d) : sProp 𝕄) = ((iSl L).view.loc (V d (cV L) (jV L)) ↦[(iSl L).view.set]{fullShare} m (iLoc d)) from rfl)) $$ Hi
  ihave Ho' := (Entails.of_eq (show (oLoc d ↦[oSet L]{fullShare} fo : sProp 𝕄) = ((oSl L).view.loc (V d (cV L) (jV L)) ↦[(oSl L).view.set]{fullShare} fo) from rfl)) $$ Ho
  ihave Ht' := (Entails.of_eq (show (tLoc d ↦{q} t : sProp 𝕄) = ((tV).view.loc (V d (cV L) (jV L)) ↦{q} t) from rfl)) $$ Ht
  ihave Hs' := (Entails.of_eq (show ((V d (cV L) (jV L)).loc cc0_scratch0 ↦{fullShare} fs : sProp 𝕄) = ((sI).view.loc (V d (cV L) (jV L)) ↦{fullShare} fs) from rfl)) $$ Hs
  ihave Hr' := (Entails.of_eq (show ((V d (cV L) (jV L)).loc cc0_scratch1 ↦{fullShare} fr : sProp 𝕄) = ((sR).view.loc (V d (cV L) (jV L)) ↦{fullShare} fr) from rfl)) $$ Hr
  have hin := list_inb m d L hpre
  sl_exec
  sl_unfold_run_names
  ihave Ho2 := (Entails.of_eq (pointsTo_congr (fun j hj => delivered (F := F) d L (m (iLoc d)) t fo fs fr hpre _ (hin fs) hj))) $$ Ho'
  sl_step
  isplitl [Hi' Ht' Ho2]
  · isplitl [Hi']; · iexact Hi'
    isplitl [Ht']; · iexact Ht'
    iexact Ho2
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.KernelIdealRun

end
-- ==== Proof.KernelIdealLaunch.lean ====
/-
  THE LAUNCH: from one subcore's task to the whole program's run.

  @main lays the two tables side by side (one host operation), starts the two SparseCores, waits for them, and cuts
  the gathered rows into the left and the right 64 columns (two host operations).

  What the call hands over. The index array and the row array are cut into 32 blocks of 512 rows: the blocks are
  pairwise disjoint (block 2·s + c starts at row 512·(2·s + c)) and cover the arrays (row r lies in block r / 512),
  so each array whole is the separating conjunction of its blocks, SparseCore by SparseCore and subcore by subcore.
  The table is read by all 32 subcores at once: its full share is split into one read share per SparseCore, and each
  SparseCore's share into one per subcore; the remainders wait with the TensorCore and with the sequencer and are
  joined back when the shares return. Each subcore hands back its block of the row array at the ONE whole-array
  function (the wide lookup), so the blocks join to the whole array at that function.

  The run: every weakly fair execution of the 35 threads ends, nothing faulting, with the three arguments unchanged
  and the two results the left and the right halves of the wide lookup of the side-by-side table.
-/
import proofs.«204638_g89515708383799_cont_9to1_m_1121_23_alg».proof.Proof.KernelIdealTile

noncomputable section

namespace Cert.Proof.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ
local notation "iV" => (Memref.whole Cert.KernelIdeal.main_arg0_scv : Memref Cert.KernelIdeal.sig Kind.scVector Space.hbm Cert.KernelIdeal.S16384 EltTy.i32)
local notation "tV" => (Memref.whole Cert.KernelIdeal.main_v0_scv : Memref Cert.KernelIdeal.sig Kind.scVector Space.hbm Cert.KernelIdeal.S1000000x128 EltTy.f32)
local notation "oV" => (Memref.whole Cert.KernelIdeal.main_v1_scv : Memref Cert.KernelIdeal.sig Kind.scVector Space.hbm Cert.KernelIdeal.S16384x128 EltTy.f32)
local notation "sI" => (Memref.whole Cert.KernelIdeal.cc0_scratch0 : Memref Cert.KernelIdeal.sig Kind.scVector Space.vmem Cert.KernelIdeal.S512 EltTy.i32)
local notation "sR" => (Memref.whole Cert.KernelIdeal.cc0_scratch1 : Memref Cert.KernelIdeal.sig Kind.scVector Space.vmem Cert.KernelIdeal.S512x128 EltTy.f32)

variable (m : (ℓ : Loc nD τ sig) → Buf (Elt F) ℓ) (ρ : Dev nD → PrngReg)

/-! ## The blocks tile the two arrays -/

/-- The grid point of subcore i of SparseCore c. -/
abbrev Lof (c : Fin 2) (i : Fin 16) : grid0.Coords := coordsV c i

theorem iSet_eq (L : grid0.Coords) : iSet L = (iBlk L).set := by
  show ((View.whole (main_arg0_scv : Ref sig .scVector)).slice (iBlk L)).set = _
  rw [View.set_slice]; exact Finset.map_refl
theorem oSet_eq (L : grid0.Coords) : oSet L = (oBlk L).set := by
  show ((View.whole (main_v1_scv : Ref sig .scVector)).slice (oBlk L)).set = _
  rw [View.set_slice]; exact Finset.map_refl

theorem off1_Lof (c : Fin 2) (i : Fin 16) : k0_off1 (Lof c i) 0 = 1024 * i.val + 512 * c.val := by
  rw [k0_off1_eq]; rfl
theorem off2_Lof0 (c : Fin 2) (i : Fin 16) : k0_off2 (Lof c i) 0 = 1024 * i.val + 512 * c.val := by
  rw [k0_off2_eq]; rfl
theorem off2_Lof1 (c : Fin 2) (i : Fin 16) : k0_off2 (Lof c i) 1 = 0 := by
  rw [k0_off2_eq]; rfl

theorem pair_ne {p p' : Fin 2 × Fin 16} (h : p ≠ p') : p.1.val ≠ p'.1.val ∨ p.2.val ≠ p'.2.val := by
  by_cases h1 : p.1.val = p'.1.val
  · exact Or.inr fun h2 => h (Prod.ext (Fin.ext h1) (Fin.ext h2))
  · exact Or.inl h1

theorem iblocks_disjoint : ∀ p ∈ (Finset.univ : Finset (Fin 2 × Fin 16)), ∀ p' ∈ (Finset.univ : Finset (Fin 2 × Fin 16)), p ≠ p' →
    Disjoint (iSet (Lof p.1 p.2)) (iSet (Lof p'.1 p'.2)) := by
  intro p _ p' _ h
  rw [iSet_eq, iSet_eq]
  refine Rect.unit_disjoint (0 : Fin 1) ?_
  rw [off1_Lof, off1_Lof]
  have := pair_ne h
  have h1 := p.1.isLt; have h2 := p'.1.isLt; have h3 := p.2.isLt; have h4 := p'.2.isLt
  show _ + 512 ≤ _ ∨ _ + 512 ≤ _
  omega

theorem oblocks_disjoint : ∀ p ∈ (Finset.univ : Finset (Fin 2 × Fin 16)), ∀ p' ∈ (Finset.univ : Finset (Fin 2 × Fin 16)), p ≠ p' →
    Disjoint (oSet (Lof p.1 p.2)) (oSet (Lof p'.1 p'.2)) := by
  intro p _ p' _ h
  rw [oSet_eq, oSet_eq]
  refine Rect.unit_disjoint (0 : Fin 2) ?_
  rw [off2_Lof0, off2_Lof0]
  have := pair_ne h
  have h1 := p.1.isLt; have h2 := p'.1.isLt; have h3 := p.2.isLt; have h4 := p'.2.isLt
  show _ + 512 ≤ _ ∨ _ + 512 ≤ _
  omega

/-- The block that holds row r: block r / 512, on SparseCore (r / 512) % 2, subcore (r / 512) / 2. -/
theorem block_of_row (r : Nat) (hr : r < 16384) :
    ∃ (c : Fin 2) (i : Fin 16), 1024 * i.val + 512 * c.val ≤ r ∧ r < 1024 * i.val + 512 * c.val + 512 :=
  ⟨⟨(r / 512) % 2, by omega⟩, ⟨(r / 512) / 2, by omega⟩, by show 1024 * ((r / 512) / 2) + 512 * ((r / 512) % 2) ≤ r; omega,
    by show r < 1024 * ((r / 512) / 2) + 512 * ((r / 512) % 2) + 512; omega⟩

theorem iblocks_cover : (Finset.univ : Finset (Fin 2 × Fin 16)).biUnion (fun p => iSet (Lof p.1 p.2)) = Finset.univ := by
  ext j
  simp only [Finset.mem_biUnion, Finset.mem_univ, true_and, iff_true]
  obtain ⟨c, i, h1, h2⟩ := block_of_row (j 0).val (j 0).isLt
  refine ⟨(c, i), ?_⟩
  rw [iSet_eq]
  refine Rect.mem_set_unit.mpr fun (a : Fin 1) => ?_
  obtain rfl : a = 0 := Subsingleton.elim _ _
  rw [off1_Lof]
  exact ⟨h1, h2⟩

theorem oblocks_cover : (Finset.univ : Finset (Fin 2 × Fin 16)).biUnion (fun p => oSet (Lof p.1 p.2)) = Finset.univ := by
  ext j
  simp only [Finset.mem_biUnion, Finset.mem_univ, true_and, iff_true]
  obtain ⟨c, i, h1, h2⟩ := block_of_row (j 0).val (j 0).isLt
  refine ⟨(c, i), ?_⟩
  rw [oSet_eq]
  refine Rect.mem_set_unit.mpr fun (a : Fin 2) => ?_
  match a with
  | ⟨0, _⟩ =>
    show k0_off2 (Lof c i) 0 ≤ (j 0).val ∧ (j 0).val < k0_off2 (Lof c i) 0 + 512
    rw [off2_Lof0]; exact ⟨h1, h2⟩
  | ⟨1, _⟩ =>
    show k0_off2 (Lof c i) 1 ≤ (j 1).val ∧ (j 1).val < k0_off2 (Lof c i) 1 + 128
    rw [off2_Lof1]; exact ⟨Nat.zero_le _, by have h128 : (j 1).val < 128 := (j 1).isLt; omega⟩

/-- The index array whole is its 32 blocks, SparseCore by SparseCore and subcore by subcore. -/
theorem iPts_blocks (d : Dev nD) (f : Buf (Elt F) (iLoc d)) :
    (iLoc d ↦{fullShare} f : sProp 𝕄)
      = bigSep Finset.univ fun c : Fin 2 => bigSep Finset.univ fun i : Fin 16 => (iLoc d ↦[iSet (Lof c i)]{fullShare} f : sProp 𝕄) := by
  refine Eq.trans ?_ (bigSep_univ_prod (fun p : Fin 2 × Fin 16 => (iLoc d ↦[iSet (Lof p.1 p.2)]{fullShare} f : sProp 𝕄)))
  rw [← pointsTo_biUnion Finset.univ (ℓ := iLoc d) (fun p : Fin 2 × Fin 16 => iSet (Lof p.1 p.2)) iblocks_disjoint, iblocks_cover]

/-- The row array whole is its 32 blocks. -/
theorem oPts_blocks (d : Dev nD) (f : Buf (Elt F) (oLoc d)) :
    (oLoc d ↦{fullShare} f : sProp 𝕄)
      = bigSep Finset.univ fun c : Fin 2 => bigSep Finset.univ fun i : Fin 16 => (oLoc d ↦[oSet (Lof c i)]{fullShare} f : sProp 𝕄) := by
  refine Eq.trans ?_ (bigSep_univ_prod (fun p : Fin 2 × Fin 16 => (oLoc d ↦[oSet (Lof p.1 p.2)]{fullShare} f : sProp 𝕄)))
  rw [← pointsTo_biUnion Finset.univ (ℓ := oLoc d) (fun p : Fin 2 × Fin 16 => oSet (Lof p.1 p.2)) oblocks_disjoint, oblocks_cover]

/-! ## What the handshakes carry -/

section Pay
variable [FloatOps F]

/-- The table's contents at the call, and what the row array ends at. -/
abbrev tbl (d : Dev nD) : Buf (Elt F) (tLoc d) := tableOf (m (aLoc d)) (m (bLoc d))
abbrev rowsAt (d : Dev nD) : Buf (Elt F) (oLoc d) := Cert.Lookup.lookupWide (tbl m d) (m (iLoc d))

/-- The table's read shares: one per SparseCore, and of that one per subcore. -/
abbrev qC (c : Fin 2) : PosShare TreeShare := Transfers.shareTok fullShare 2 c
abbrev qT (c : Fin 2) (i : Fin 16) : PosShare TreeShare := Transfers.shareTok (qC c) 16 i

/-- A SparseCore's sixteen blocks of the two arrays, the rows at f. -/
abbrev blocksPts (d : Dev nD) (c : Fin 2) (f : Buf (Elt F) (oLoc d)) : sProp 𝕄 :=
  bigSep Finset.univ fun i : Fin 16 => iprop(iBlkPts m d (Lof c i) ∗ oBlkPts d (Lof c i) f)

/-- The call hands SparseCore c its share of the table and its sixteen blocks, each subcore its block of the indices,
    its share of the table and its block of the rows; they come back with the rows at the wide lookup. -/
def P : (K (F := F)).Pay (nD := nD) (Val := Elt F) (Name := ℕ) (U := UU) where
  st := fun q d c => match q with
    | 0 => iprop(tShPts d (qC (Fin.cast nCore_zero c)) (tbl m d) ∗ blocksPts m d (Fin.cast nCore_zero c) (m (oLoc d)))
  dn := fun q d c => match q with
    | 0 => iprop(tShPts d (qC (Fin.cast nCore_zero c)) (tbl m d) ∗ blocksPts m d (Fin.cast nCore_zero c) (rowsAt m d))
  go := fun q d c i => match q with
    | 0 => iprop(iBlkPts m d (Lof (Fin.cast nCore_zero c) (Fin.cast nSub_zero i))
        ∗ tShPts d (qT (Fin.cast nCore_zero c) (Fin.cast nSub_zero i)) (tbl m d)
        ∗ oBlkPts d (Lof (Fin.cast nCore_zero c) (Fin.cast nSub_zero i)) (m (oLoc d)))
  td := fun q d c i => match q with
    | 0 => iprop(iBlkPts m d (Lof (Fin.cast nCore_zero c) (Fin.cast nSub_zero i))
        ∗ tShPts d (qT (Fin.cast nCore_zero c) (Fin.cast nSub_zero i)) (tbl m d)
        ∗ oBlkPts d (Lof (Fin.cast nCore_zero c) (Fin.cast nSub_zero i)) (rowsAt m d))
  x := fun _ _ => iprop(emp)

instance P_storable : (P (F := F) m).IsStorable where
  st q d c := match q with
    | 0 => (inferInstance : BI.Storable (upEmb : UEmb _ 𝕄)
        iprop(tShPts d (qC (Fin.cast nCore_zero c)) (tbl m d) ∗ blocksPts m d (Fin.cast nCore_zero c) (m (oLoc d))))
  dn q d c := match q with
    | 0 => (inferInstance : BI.Storable (upEmb : UEmb _ 𝕄)
        iprop(tShPts d (qC (Fin.cast nCore_zero c)) (tbl m d) ∗ blocksPts m d (Fin.cast nCore_zero c) (rowsAt m d)))
  go q d c i := match q with
    | 0 => (inferInstance : BI.Storable (upEmb : UEmb _ 𝕄)
        iprop(iBlkPts m d (Lof (Fin.cast nCore_zero c) (Fin.cast nSub_zero i))
          ∗ tShPts d (qT (Fin.cast nCore_zero c) (Fin.cast nSub_zero i)) (tbl m d)
          ∗ oBlkPts d (Lof (Fin.cast nCore_zero c) (Fin.cast nSub_zero i)) (m (oLoc d))))
  td q d c i := match q with
    | 0 => (inferInstance : BI.Storable (upEmb : UEmb _ 𝕄)
        iprop(iBlkPts m d (Lof (Fin.cast nCore_zero c) (Fin.cast nSub_zero i))
          ∗ tShPts d (qT (Fin.cast nCore_zero c) (Fin.cast nSub_zero i)) (tbl m d)
          ∗ oBlkPts d (Lof (Fin.cast nCore_zero c) (Fin.cast nSub_zero i)) (rowsAt m d)))

/-- What the proof asks of the launch memory: every index names a row of the table. -/
def PreOK : Prop := ∀ (d : Dev nD) (j : S16384.Idx), (m (iLoc d) j).toNat < 1000000

/-! ## The launch theorem's obligations -/

theorem defs₀_vector (c : Fin τ.nSC) (s : Fin τ.nSub) :
    defs₀ (F := F) (.scVector c s) 0 ()
      = SparseCore.onTile hcore0 hsub0 (fun c s => cc0__body (coordsV c s)
          iV (Memref.isWhole_whole _) tV (Memref.isWhole_whole _) oV (Memref.isWhole_whole _)
          sI (Memref.isWhole_whole _) sR (Memref.isWhole_whole _) cc0_scratch2 cc0_scratch3 cc0_scratch4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF _ _ _ (hpre d) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's share of the table splits into its subcores' shares and a remainder, which waits with the sequencer
    and is joined back when the shares return. -/
theorem vecSplit : (K (F := F)).VecSplit' (P m) 0 := by
  intro d c
  show iprop(tShPts d (qC (Fin.cast nCore_zero c)) (tbl m d) ∗ blocksPts m d (Fin.cast nCore_zero c) (m (oLoc d))) ⊢ |={Set.univ}=> iprop(
      (bigSep Finset.univ fun i : Fin ((K (F := F)).nSub 0) =>
        iprop(iBlkPts m d (Lof (Fin.cast nCore_zero c) (Fin.cast nSub_zero i))
          ∗ tShPts d (qT (Fin.cast nCore_zero c) (Fin.cast nSub_zero i)) (tbl m d)
          ∗ oBlkPts d (Lof (Fin.cast nCore_zero c) (Fin.cast nSub_zero i)) (m (oLoc d))))
      ∗ ((bigSep Finset.univ fun i : Fin ((K (F := F)).nSub 0) =>
          iprop(iBlkPts m d (Lof (Fin.cast nCore_zero c) (Fin.cast nSub_zero i))
            ∗ tShPts d (qT (Fin.cast nCore_zero c) (Fin.cast nSub_zero i)) (tbl m d)
            ∗ oBlkPts d (Lof (Fin.cast nCore_zero c) (Fin.cast nSub_zero i)) (rowsAt m d)))
          -∗ iprop(tShPts d (qC (Fin.cast nCore_zero c)) (tbl m d) ∗ blocksPts m d (Fin.cast nCore_zero c) (rowsAt m d))))
  generalize Fin.cast nCore_zero c = c'
  rw [bigSep_tasks (F := F) (fun i => iprop(iBlkPts m d (Lof c' i) ∗ tShPts d (qT c' i) (tbl m d) ∗ oBlkPts d (Lof c' i) (m (oLoc d)))),
    bigSep_tasks (F := F) (fun i => iprop(iBlkPts m d (Lof c' i) ∗ tShPts d (qT c' i) (tbl m d) ∗ oBlkPts d (Lof c' i) (rowsAt m d))),
    bigSep_sep', bigSep_sep', bigSep_sep', bigSep_sep']
  show iprop(tShPts d (qC c') (tbl m d) ∗ bigSep Finset.univ fun i : Fin 16 => iprop(iBlkPts m d (Lof c' i) ∗ oBlkPts d (Lof c' i) (m (oLoc d)))) ⊢ |={Set.univ}=> iprop(_ ∗ (_ -∗
    iprop(tShPts d (qC c') (tbl m d) ∗ bigSep Finset.univ fun i : Fin 16 => iprop(iBlkPts m d (Lof c' i) ∗ oBlkPts d (Lof c' i) (rowsAt m d)))))
  rw [bigSep_sep', bigSep_sep']
  iintro ⟨Ht, Hi, Ho⟩
  ihave Hts := (Transfers.pointsTo_toks_split (qC c') 16) $$ Ht
  icases Hts with ⟨Hdrop, Htoks⟩
  imodintro
  isplitl [Hi Htoks Ho]
  · isplitl [Hi]; · iexact Hi
    isplitl [Htoks]; · iexact Htoks
    iexact Ho
  iintro ⟨Hi, Htoks, Ho⟩
  isplitl [Hdrop Htoks]
  · iapply (Transfers.pointsTo_toks_join (qC c') 16)
    isplitl [Hdrop]; · iexact Hdrop
    iexact Htoks
  isplitl [Hi]; · iexact Hi
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Pay

/-! ## @main on the TensorCore -/

section Main
variable [FloatOps F]

abbrev a' : DevRef τ sig := Proc.devRef .tc (main_arg1 : Ref sig .tc)
abbrev b' : DevRef τ sig := Proc.devRef .tc (main_arg2 : Ref sig .tc)
abbrev t' : DevRef τ sig := Proc.devRef .tc (main_v0 : Ref sig .tc)
abbrev o' : DevRef τ sig := Proc.devRef .tc (main_v1 : Ref sig .tc)
abbrev p' : DevRef τ sig := Proc.devRef .tc (main_v2 : Ref sig .tc)
abbrev q' : DevRef τ sig := Proc.devRef .tc (main_v3 : Ref sig .tc)

/-- The three host operations: the tables side by side; the left and the right 64 columns of the gathered rows. -/
abbrev opCat : HloOp τ sig (Elt F) := StableHlo.binary main_arg1 main_arg2 main_v0
  (fun a b => concatenate S1000000x128 1 [⟨S1000000x64, a⟩, ⟨S1000000x64, b⟩] concatenates_S1000000x64_S1000000x64_S1000000x128_d1)
abbrev opL : HloOp τ sig (Elt F) := StableHlo.unary main_v1 main_v2 (extractStridedSlice S16384x64 ![0, 0] · slices_S16384x128_S16384x64_0_0)
abbrev opR : HloOp τ sig (Elt F) := StableHlo.unary main_v1 main_v3 (extractStridedSlice S16384x64 ![0, 64] · slices_S16384x128_S16384x64_0_64)

/-- The two results: the left and the right halves of the gathered rows. -/
abbrev resL (d : Dev nD) : Buf (Elt F) (pLoc d) := extractStridedSlice S16384x64 ![0, 0] (rowsAt m d) slices_S16384x128_S16384x64_0_0
abbrev resR (d : Dev nD) : Buf (Elt F) (qLoc d) := extractStridedSlice S16384x64 ![0, 64] (rowsAt m d) slices_S16384x128_S16384x64_0_64

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (aLoc d ↦{fullShare} W main_arg1) ∗ (bLoc d ↦{fullShare} W main_arg2)
      ∗ (tLoc d ↦{fullShare} W main_v0) ∗ (oLoc d ↦{fullShare} W main_v1) ∗ (pLoc d ↦{fullShare} W main_v2) ∗ qLoc d ↦{fullShare} W main_v3) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem held_abt (d : Dev nD) (W : Valuation τ sig (Elt F)) :
    (held (T d) ({a', b', t'} : Finset (DevRef τ sig)) W : sProp 𝕄)
      = iprop((aLoc d ↦{fullShare} W a') ∗ (bLoc d ↦{fullShare} W b') ∗ tLoc d ↦{fullShare} W t') := by
  unfold held
  rw [SparseCore.bigSep_insert' (by decide), SparseCore.bigSep_insert' (by decide), bigSep_singleton]
omit [FloatOps F] in
theorem held_op (d : Dev nD) (W : Valuation τ sig (Elt F)) :
    (held (T d) ({o', p'} : Finset (DevRef τ sig)) W : sProp 𝕄) = iprop((oLoc d ↦{fullShare} W o') ∗ pLoc d ↦{fullShare} W p') := by
  unfold held
  rw [SparseCore.bigSep_insert' (by decide), bigSep_singleton]
omit [FloatOps F] in
theorem held_oq (d : Dev nD) (W : Valuation τ sig (Elt F)) :
    (held (T d) ({o', q'} : Finset (DevRef τ sig)) W : sProp 𝕄) = iprop((oLoc d ↦{fullShare} W o') ∗ qLoc d ↦{fullShare} W q') := by
  unfold held
  rw [SparseCore.bigSep_insert' (by decide), bigSep_singleton]

/-- The launch valuation; and the one with the gathered rows in place. -/
def V0 (d : Dev nD) : Valuation τ sig (Elt F) := fun b => m (d, b)
def V1 (d : Dev nD) : Valuation τ sig (Elt F) := Function.update (V0 m d) o' (rowsAt m d)

theorem V1_o (d : Dev nD) : V1 m d o' = rowsAt m d := Function.update_self _ _ _
theorem V1_p (d : Dev nD) : V1 m d p' = m (pLoc d) := Function.update_of_ne (show p' ≠ o' by decide) _ _
theorem V1_q (d : Dev nD) : V1 m d q' = m (qLoc d) := Function.update_of_ne (show q' ≠ o' by decide) _ _

theorem hCat : (opCat (F := F)).bufs ⊆ ({a', b', t'} : Finset (DevRef τ sig)) :=
  show ({a', b', t'} : Finset (DevRef τ sig)) ⊆ {a', b', t'} by decide
theorem hL : (opL (F := F)).bufs ⊆ ({o', p'} : Finset (DevRef τ sig)) :=
  show ({o', p'} : Finset (DevRef τ sig)) ⊆ {o', p'} by decide
theorem hR : (opR (F := F)).bufs ⊆ ({o', q'} : Finset (DevRef τ sig)) :=
  show ({o', q'} : Finset (DevRef τ sig)) ⊆ {o', q'} by decide

theorem held_cat (d : Dev nD) :
    (held (T d) ({a', b', t'} : Finset (DevRef τ sig)) ((opCat (F := F)).result (V0 m d)) : sProp 𝕄)
      = iprop((aLoc d ↦{fullShare} m (aLoc d)) ∗ (bLoc d ↦{fullShare} m (bLoc d)) ∗ tLoc d ↦{fullShare} tbl m d) := by
  rw [held_abt, (opCat (F := F)).result_of_not_mem (V0 m d) (b := a') (show a' ∉ ({t'} : Finset (DevRef τ sig)) by decide),
    (opCat (F := F)).result_of_not_mem (V0 m d) (b := b') (show b' ∉ ({t'} : Finset (DevRef τ sig)) by decide)]
  rw [show (opCat (F := F)).result (V0 m d) t' = tbl m d from StableHlo.binary_result _ _ _ _ _ _ _ _]
  rfl
theorem held_L (d : Dev nD) :
    (held (T d) ({o', p'} : Finset (DevRef τ sig)) ((opL (F := F)).result (V1 m d)) : sProp 𝕄)
      = iprop((oLoc d ↦{fullShare} rowsAt m d) ∗ pLoc d ↦{fullShare} resL m d) := by
  rw [held_op, (opL (F := F)).result_of_not_mem (V1 m d) (b := o') (show o' ∉ ({p'} : Finset (DevRef τ sig)) by decide), V1_o]
  rw [show (opL (F := F)).result (V1 m d) p' = resL m d from (StableHlo.unary_result _ _ _ _ _ _).trans (by rw [V1_o])]
theorem held_R (d : Dev nD) :
    (held (T d) ({o', q'} : Finset (DevRef τ sig)) ((opR (F := F)).result (V1 m d)) : sProp 𝕄)
      = iprop((oLoc d ↦{fullShare} rowsAt m d) ∗ qLoc d ↦{fullShare} resR m d) := by
  rw [held_oq, (opR (F := F)).result_of_not_mem (V1 m d) (b := o') (show o' ∉ ({q'} : Finset (DevRef τ sig)) by decide), V1_o]
  rw [show (opR (F := F)).result (V1 m d) q' = resR m d from (StableHlo.unary_result _ _ _ _ _ _).trans (by rw [V1_o])]

/-- The SparseCores' holdings, regrouped: the table's shares, the index blocks, the row blocks at f. -/
theorem cores_eq (d : Dev nD) (f : Buf (Elt F) (oLoc d)) :
    (bigSep Finset.univ fun c : Fin ((K (F := F)).nCore 0) =>
        iprop(tShPts d (qC (Fin.cast nCore_zero c)) (tbl m d) ∗ blocksPts m d (Fin.cast nCore_zero c) f))
      = iprop((bigSep Finset.univ fun c : Fin 2 => tShPts d (qC c) (tbl m d))
          ∗ (bigSep Finset.univ fun c : Fin 2 => bigSep Finset.univ fun i : Fin 16 => iBlkPts m d (Lof c i))
          ∗ (bigSep Finset.univ fun c : Fin 2 => bigSep Finset.univ fun i : Fin 16 => oBlkPts d (Lof c i) f)) := by
  rw [bigSep_cores (F := F) (fun c => iprop(tShPts d (qC c) (tbl m d) ∗ blocksPts m d c f)), bigSep_sep']
  refine congrArg (fun X : sProp 𝕄 => iprop((bigSep Finset.univ fun c : Fin 2 => tShPts d (qC c) (tbl m d)) ∗ X)) ?_
  show (bigSep Finset.univ fun c : Fin 2 => bigSep Finset.univ fun i : Fin 16 => iprop(iBlkPts m d (Lof c i) ∗ oBlkPts d (Lof c i) f)) = _
  rw [bigSep_congr (fun c _ => bigSep_sep' Finset.univ (fun i : Fin 16 => iBlkPts m d (Lof c i)) (fun i : Fin 16 => oBlkPts d (Lof c i) f)), bigSep_sep']

/-- Before the call: the table's full share into the SparseCores' read shares and a remainder, the two arrays into
    their blocks. -/
theorem call_split (d : Dev nD) :
    iprop((tLoc d ↦{fullShare} tbl m d) ∗ (iLoc d ↦{fullShare} m (iLoc d)) ∗ (oLoc d ↦{fullShare} m (oLoc d)))
      ⊢ (iprop((tLoc d ↦{Transfers.shareDrop fullShare 2} tbl m d) ∗ bigSep Finset.univ fun c : Fin ((K (F := F)).nCore 0) => (P m).st 0 d c) : sProp 𝕄) := by
  show _ ⊢ iprop(_ ∗ bigSep Finset.univ fun c : Fin ((K (F := F)).nCore 0) =>
    iprop(tShPts d (qC (Fin.cast nCore_zero c)) (tbl m d) ∗ blocksPts m d (Fin.cast nCore_zero c) (m (oLoc d))))
  rw [cores_eq]
  iintro ⟨Ht, Hi, Ho⟩
  ihave Hts := (Transfers.pointsTo_toks_split fullShare 2) $$ Ht
  icases Hts with ⟨Hdrop, Htoks⟩
  ihave Hi' := (Entails.of_eq (iPts_blocks (F := F) d _)) $$ Hi
  ihave Ho' := (Entails.of_eq (oPts_blocks (F := F) d _)) $$ Ho
  isplitl [Hdrop]; · iexact Hdrop
  isplitl [Htoks]; · iexact Htoks
  isplitl [Hi']; · iexact Hi'
  iexact Ho'

/-- After the call: the shares joined back to the full share, the blocks to the arrays, the rows at the wide lookup. -/
theorem call_join (d : Dev nD) :
    (iprop((tLoc d ↦{Transfers.shareDrop fullShare 2} tbl m d) ∗ bigSep Finset.univ fun c : Fin ((K (F := F)).nCore 0) => (P m).dn 0 d c) : sProp 𝕄)
      ⊢ iprop((tLoc d ↦{fullShare} tbl m d) ∗ (iLoc d ↦{fullShare} m (iLoc d)) ∗ (oLoc d ↦{fullShare} rowsAt m d)) := by
  show iprop(_ ∗ bigSep Finset.univ fun c : Fin ((K (F := F)).nCore 0) =>
    iprop(tShPts d (qC (Fin.cast nCore_zero c)) (tbl m d) ∗ blocksPts m d (Fin.cast nCore_zero c) (rowsAt m d))) ⊢ _
  rw [cores_eq]
  iintro ⟨Hdrop, Htoks, Hi, Ho⟩
  isplitl [Hdrop Htoks]
  · iapply (Transfers.pointsTo_toks_join fullShare 2)
    isplitl [Hdrop]; · iexact Hdrop
    iexact Htoks
  isplitl [Hi]
  · iapply (Entails.of_eq (iPts_blocks (F := F) d _).symm); iexact Hi
  iapply (Entails.of_eq (oPts_blocks (F := F) d _).symm); iexact Ho

/-- What @main leaves the claim: the arguments at their launch contents, the two results at the two halves. -/
abbrev FIN (d : Dev nD) : sProp 𝕄 :=
  iprop((iLoc d ↦{fullShare} m (iLoc d)) ∗ (aLoc d ↦{fullShare} m (aLoc d)) ∗ (bLoc d ↦{fullShare} m (bLoc d))
    ∗ (pLoc d ↦{fullShare} resL m d) ∗ qLoc d ↦{fullShare} resR m d)

/-- @main on device d's TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Ha, Hbb, Ht, Ho, Hp, Hq⟩, -, -⟩, -⟩
  -- the two tables side by side
  iapply (wp_hlo_within 𝒱 (SparseCore.T d) none Set.univ (op := opCat) (S := ({a', b', t'} : Finset (DevRef τ sig))) hCat (V := V0 m d)) $$ [Hb Ha Hbb Ht]
  · isplitl [Hb]; · iexact Hb
    rw [held_abt]
    isplitl [Ha]; · iexact Ha
    isplitl [Hbb]; · iexact Hbb
    iexact Ht
  iintro ⟨Hb, Hheld⟩
  ihave Hh := (Entails.of_eq (held_cat (F := F) m d)) $$ Hheld
  icases Hh with ⟨Ha, Hbb, Ht⟩
  rw [wp_ret]; imodintro
  -- the call: each SparseCore its share of the table and its blocks, and back
  ihave Hs := (call_split (F := F) m d) $$ [Ht Hi Ho]
  · isplitl [Ht]; · iexact Ht
    isplitl [Hi]; · iexact Hi
    iexact Ho
  icases Hs with ⟨Hdrop, Hsts⟩
  iapply ((K (F := F)).wp_run (D (F := F)) 𝒱 (EH := EH) (P := P m) κ d 0) $$ [Hst Hsts Hdrop Hb Ha Hbb Hp Hq]
  isplitr; · iexact Hctx
  isplitl [Hst]; · iexact Hst
  isplitl [Hsts]; · iexact Hsts
  iintro ⟨Hst, Hdn⟩
  ihave Hj := (call_join (F := F) m d) $$ [Hdrop Hdn]
  · isplitl [Hdrop]; · iexact Hdrop
    iexact Hdn
  icases Hj with ⟨Ht, Hi, Ho⟩
  -- the left 64 columns
  iapply (wp_hlo_within 𝒱 (SparseCore.T d) none Set.univ (op := opL) (S := ({o', p'} : Finset (DevRef τ sig))) hL (V := V1 m d)) $$ [Hb Ho Hp]
  · isplitl [Hb]; · iexact Hb
    rw [held_op, V1_o, V1_p]
    isplitl [Ho]; · iexact Ho
    iexact Hp
  iintro ⟨Hb, Hheld⟩
  ihave Hh := (Entails.of_eq (held_L (F := F) m d)) $$ Hheld
  icases Hh with ⟨Ho, Hp⟩
  rw [wp_ret]; imodintro
  -- the right 64 columns
  iapply (wp_hlo_within 𝒱 (SparseCore.T d) none Set.univ (op := opR) (S := ({o', q'} : Finset (DevRef τ sig))) hR (V := V1 m d)) $$ [Hb Ho Hq]
  · isplitl [Hb]; · iexact Hb
    rw [held_oq, V1_o, V1_q]
    isplitl [Ho]; · iexact Ho
    iexact Hq
  iintro ⟨Hb, Hheld⟩
  ihave Hh := (Entails.of_eq (held_R (F := F) m d)) $$ Hheld
  icases Hh with ⟨Ho, Hq⟩
  rw [wp_ret]; imodintro; imodintro
  isplitl [Hst]; · iexact Hst
  isplitl [Hi]; · iexact Hi
  isplitl [Ha]; · iexact Ha
  isplitl [Hbb]; · iexact Hbb
  isplitl [Hp]; · iexact Hp
  iexact Hq

def fq (d : Dev nD) (s' : Phys nD τ sig (Elt F)) : Prop :=
  s'.mem.mem (iLoc d) = m (iLoc d) ∧ s'.mem.mem (aLoc d) = m (aLoc d) ∧ s'.mem.mem (bLoc d) = m (bLoc d)
    ∧ s'.mem.mem (pLoc d) = resL m d ∧ s'.mem.mem (qLoc d) = resR m d

theorem hfin (d : Dev nD) (s' : Phys nD τ sig (Elt F)) : iprop(FIN m d ∗ SI s') ⊢ (⌜fq m d s'⌝ : sProp 𝕄) := by
  iintro ⟨⟨Hi, Ha, Hb, Hp, Hq⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h3, HSI, -⟩
  ihave H := (persistent_entails_right (SI_pointsTo_agree (st := s') (ℓ := pLoc d) (I := Finset.univ) (q := fullShare) (f := resL m d))) $$ [HSI Hp]
  · isplitl [HSI] <;> iassumption
  icases H with ⟨%h4, HSI, -⟩
  ihave H := (SI_pointsTo_agree (st := s') (ℓ := qLoc d) (I := Finset.univ) (q := fullShare) (f := resR m d)) $$ [HSI Hq]
  · isplitl [HSI] <;> iassumption
  icases H with %h5
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i)⟩

/-! ## The program's run -/

def QC : PUnit × MemSt nD τ sig (Elt F) → Prop := fun r => ∀ c : Dev nD,
  r.2.mem (iLoc c) = m (iLoc c) ∧ r.2.mem (aLoc c) = m (aLoc c) ∧ r.2.mem (bLoc c) = m (bLoc c)
    ∧ r.2.mem (pLoc c) = resL m c ∧ r.2.mem (qLoc c) = resR m c

/-- Every weakly fair execution of the device's threads ends, nothing faulting, with the arguments unchanged and the two
    results the two halves of the wide lookup of the side-by-side table. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Main

end Cert.Proof.KernelIdealRun

end
-- ==== Proof.ReferenceRun.lean ====
/-
  The reference program run: two lookups, one per table, each jnp.take's twenty-three operations — a negative index
  is wrapped by the table's height, the index column is checked against [0, 999999], the rows are gathered (the
  gather itself clamps its start index into the table), and a row whose index failed the check is replaced by a
  not-a-number fill. The operations are listed in order over each call's own buffers; every weakly fair execution
  ends with every buffer at the list's fold over the launch contents, and the two results are that fold read as ONE
  function of the table and the indices (takeOf).
-/
import proofs.«204638_g89515708383799_cont_9to1_m_1121_23_alg».proof.Proof.Gen.ReferenceIdeal
import Idealize.ShloMosaic.Lib.StableHlo.Run

noncomputable section

namespace Cert.Proof.ReferenceRun

open Cert.ReferenceIdeal Cert.ReferenceIdeal.Gen Idealize.ShloMosaic Idealize.ShloMosaic.TcCoe Idealize.SL.Sem Idealize.ShloMosaic.StableHlo

variable {F : FTy → Type} [FloatOps F]

/-- The index column of one lookup: the indices, a negative one wrapped by the table's height. -/
def takeCol (idx : S16384.Idx → BitVec 32) : S16384x1.Idx → BitVec 32 :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 1000000#32))) idx)

/-- The bounds check of one lookup: per row, whether the column's entry lies in [0, 999999]. -/
def takeMask (col : S16384x1.Idx → BitVec 32) : S16384.Idx → BitVec 1 :=
  Host.reduce IntOp.andi
    (andi (cmpi .sge col (broadcastInDim S16384x1 ![] bcast_S_S16384x1 (constantI S_ 32 0#32)))
      (cmpi .sle col (broadcastInDim S16384x1 ![0, 1] bcast_S1x1_S16384x1_0_1 (broadcastInDim S1x1 ![1] bcast_S1_S1x1_1 (constantI S1 32 999999#32)))))
    (constantI S_ 1 1#1) reducesTo_S16384x1_S16384_d1 h_S_

/-- One lookup as a function of its table and the indices: the gathered rows where the check holds, the fill elsewhere. -/
def takeOf (w : S1000000x64.Idx → Elt F .f32) (idx : S16384.Idx → BitVec 32) : S16384x64.Idx → Elt F .f32 :=
  select (broadcastInDim S16384x64 ![0] bcast_S16384_S16384x64_0 (takeMask (takeCol idx)))
    (Host.gather gather_S1000000x64_S16384x1_S16384x64_1_0_n_n_0_1_164 w (takeCol idx))
    (broadcastInDim S16384x64 ![] bcast_S_S16384x64 (constant S_ .f32 0x7FC00000#32))

/-- The program's operations, in order: the first lookup's over its call's buffers, then the second's. -/
abbrev ops : List (HloOp τ sig (Elt F)) :=
  [
    TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S1000000x64_S16384x1_S16384x64_1_0_n_n_0_1_164 x i),
    TRef.unary main_call0.v12 main_call0.v14 (broadcastInDim S16384x64 ![0] bcast_S16384_S16384x64_0),
    TRef.nullary main_call0.cst (constant S_ .f32 0x7FC00000#32),
    TRef.unary main_call0.cst main_call0.v15 (broadcastInDim S16384x64 ![] bcast_S_S16384x64),
    TRef.ternary main_call0.v14 main_call0.v13 main_call0.v15 main_call0.v16 select,
    TRef.nullary main_call1.c (constantI S_ 32 0#32),
    TRef.unary main_call1.c main_call1.v0 (broadcastInDim S16384 ![] bcast_S_S16384),
    TRef.binary (.of main_arg0) main_call1.v0 main_call1.v1 (cmpi .slt),
    TRef.nullary main_call1.c_0 (constantI S_ 32 1000000#32),
    TRef.unary main_call1.c_0 main_call1.v2 (broadcastInDim S16384 ![] bcast_S_S16384),
    TRef.binary (.of main_arg0) main_call1.v2 main_call1.v3 addi,
    TRef.ternary main_call1.v1 main_call1.v3 (.of main_arg0) main_call1.call0.v0 select,
    TRef.unary main_call1.call0.v0 main_call1.v5 (broadcastInDim S16384x1 ![0] bcast_S16384_S16384x1_0),
    TRef.nullary main_call1.c_1 (constantI S1 32 999999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg2) main_call1.v5 main_call1.v13 (fun x i => Host.gather gather_S1000000x64_S16384x1_S16384x64_1_0_n_n_0_1_164 x i),
    TRef.unary main_call1.v12 main_call1.v14 (broadcastInDim S16384x64 ![0] bcast_S16384_S16384x64_0),
    TRef.nullary main_call1.cst (constant S_ .f32 0x7FC00000#32),
    TRef.unary main_call1.cst main_call1.v15 (broadcastInDim S16384x64 ![] bcast_S_S16384x64),
    TRef.ternary main_call1.v14 main_call1.v13 main_call1.v15 main_call1.v16 select ]

set_option maxRecDepth 1024 in
theorem main_eq (c : Dev nD) : main (F := F) c = seq ops := by
  simp only [main, fn_take.body, fn_where.body, seq, bind_assoc, pure_bind]

attribute [local irreducible] Host.reduce Host.gather in
set_option maxRecDepth 8192 in
set_option maxHeartbeats 400000 in
theorem out0_eq (V : Valuation τ sig (Elt F)) :
    after ops V (main_v0 : DevRef τ sig) = takeOf (V (main_arg1 : DevRef τ sig)) (V (main_arg0 : DevRef τ sig)) := by
  after_results_simp
  try rfl

attribute [local irreducible] Host.reduce Host.gather in
set_option maxRecDepth 8192 in
set_option maxHeartbeats 400000 in
theorem out1_eq (V : Valuation τ sig (Elt F)) :
    after ops V (main_v1 : DevRef τ sig) = takeOf (V (main_arg2 : DevRef τ sig)) (V (main_arg0 : DevRef τ sig)) := by
  after_results_simp
  try rfl

set_option maxRecDepth 8192 in
theorem arg0_eq (V : Valuation τ sig (Elt F)) : after ops V (main_arg0 : DevRef τ sig) = V (main_arg0 : DevRef τ sig) := by
  after_results_simp
  try rfl
set_option maxRecDepth 8192 in
theorem arg1_eq (V : Valuation τ sig (Elt F)) : after ops V (main_arg1 : DevRef τ sig) = V (main_arg1 : DevRef τ sig) := by
  after_results_simp
  try rfl
set_option maxRecDepth 8192 in
theorem arg2_eq (V : Valuation τ sig (Elt F)) : after ops V (main_arg2 : DevRef τ sig) = V (main_arg2 : DevRef τ sig) := by
  after_results_simp
  try rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Every weakly fair execution of the reference ends, nothing faulting, with the two results the two lookups and
    the three arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = takeOf (m ((c.tc : Thread nD τ).loc main_arg1)) (m ((c.tc : Thread nD τ).loc main_arg0))
      ∧ r.2.mem ((c.tc : Thread nD τ).loc main_v1) = takeOf (m ((c.tc : Thread nD τ).loc main_arg2)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v0).trans (out0_eq _), (h c main_v1).trans (out1_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ)

end Cert.Proof.ReferenceRun

end
-- ==== Proof.LibRowIndex.lean ====
/-
  StableHLO's row gather and row scatter READ AT AN INDEX, for the dimension numbers that indexing the rows of a
  2-D array (or the entries of a 1-D array) by an index column `[E, 1]`, and a segment sum over such a column, lower to.

  Gather (`offset_dims = [1]`, `collapsed_slice_dims = [0]`, `start_index_map = [0]`, `index_vector_dim = 1`,
  `slice_sizes = [1, C]`): result element `(e, c)` is the operand at row `idx[e, 0]` — read as a signed integer and
  clamped into `[0, N − 1]`, as StableHLO clamps every start index — and column `c`. The rank-1 form
  (`offset_dims = []`, `slice_sizes = [1]`) reads entry `idx[e, 0]`, clamped the same way.

  Scatter (`update_window_dims = [1]`, `inserted_window_dims = [0]`, `scatter_dims_to_operand_dims = [0]`,
  `index_vector_dim = 1`): update `(e, c)` lands on operand row `idx[e, 0]` — read signed and NOT clamped — and
  column `c`; it lands only when that row is inside `[0, N)`, and is dropped otherwise.
-/
import Idealize.ShloMosaic.Lib.ValueIdx

noncomputable section

namespace Cert.RowIndex

open Idealize.ShloMosaic Idealize.ShloMosaic.ValueIdx

/-! ## Rows of a rank-2 operand at an index column -/

section Gather
variable {α : Type}

/-- The row gather's dimension numbers for an operand `[N, C]`, start indices `[E, 1]` and result `[E, C]`; their
    conditions `wf` are decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The operand index result element `(e, c)` reads: row `idx[e, 0]` (signed, clamped into `[0, N − 1]`), column `c`.
    Axis 0 is collapsed and indexed (start index, no offset); axis 1 is a full-width offset axis (start 0, offset `c`). -/
theorem rowGather_operandIdx {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx
      = ix2 ⟨min (idx (ix2 e (0 : Fin 1))).toInt.toNat (N - 1), by omega⟩ c := by
  have h0 : ((rowGatherDims N E C wf).operandIdx (ix2 e c) idx (0 : Fin 2)).val
      = min (idx (ix2 e (0 : Fin 1))).toInt.toNat (N - 1) := by
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : ((rowGatherDims N E C wf).operandIdx (ix2 e c) idx (1 : Fin 2)).val = c.val := by
    show (rowGatherDims N E C wf).start (ix2 e c) idx 1 + (rowGatherDims N E C wf).batchCoord (ix2 e c) 1
      + (rowGatherDims N E C wf).offCoord (ix2 e c) 1 = _
    rw [GatherDims.batchCoord_eq_zero _ _ _ List.not_mem_nil]
    simp only [Nat.add_zero]
    unfold GatherDims.start
    rw [dif_neg (show (1 : Fin 2) ∉ (rowGatherDims N E C wf).startIndexMap from
      (by decide : (1 : Fin 2) ∉ ([0] : List (Fin 2))))]
    rw [Nat.zero_add]
    unfold GatherDims.offCoord
    rw [dif_pos (show (1 : Fin 2) ∈ (rowGatherDims N E C wf).sKept from (GatherDims.mem_sKept _ _).mpr
      ⟨(by decide : (1 : Fin 2) ∉ ([0] : List (Fin 2))), List.not_mem_nil⟩)]
    rfl
  funext a; refine Fin.ext ?_
  match a with
  | ⟨0, _⟩ => exact h0
  | ⟨1, _⟩ => exact h1

/-- THE ROW GATHER READ AT `(e, c)`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 ⟨min (idx (ix2 e (0 : Fin 1))).toInt.toNat (N - 1), by omega⟩ c) := by
  unfold Host.gather
  rw [rowGather_operandIdx hN]

/-! ## The same gather of a rank-1 operand: entries of a vector at an index column -/

/-- The entry gather's dimension numbers for an operand `[N]`, start indices `[E, 1]` and result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The operand index result element `e` reads: entry `idx[e, 0]`, signed and clamped into `[0, N − 1]`. -/
theorem vecGather_operandIdx {N E w : Nat} (hN : 0 < N)
    (wf : GatherDims.WF ⟨1, ![N]⟩ ⟨2, ![E, 1]⟩ ⟨1, ![E]⟩ [] [0] [] [0] [] 1 ![1])
    (idx : IVec ⟨2, ![E, 1]⟩ w) (e : Fin E) :
    (vecGatherDims N E wf).operandIdx (ix1 e) idx
      = ix1 ⟨min (idx (ix2 e (0 : Fin 1))).toInt.toNat (N - 1), by omega⟩ := by
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE ENTRY GATHER READ AT `e`. -/
theorem vecGather_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (vecGatherDims N E wf) v idx (ix1 e)
      = v (ix1 ⟨min (idx (ix2 e (0 : Fin 1))).toInt.toNat (N - 1), by omega⟩) := by
  unfold Host.gather
  rw [vecGather_operandIdx hN]

end Gather

/-! ## Rows scattered into a rank-2 operand at an index column -/

section Scatter

/-- The row scatter's dimension numbers for an operand `[N, C]`, scatter indices `[E, 1]` and updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis the window of update `(e, c)` starts at `idx[e, 0]`, read signed and not clamped. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the index map does not name, the window starts at `0`. -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from
    (by decide : (1 : Fin 2) ∉ ([0] : List (Fin 2))))]

/-- The row axis is an inserted window axis: its window coordinate is `0`. -/
theorem rowScatter_window0 {N E C : Nat}
    (wf : ScatterDims.WF ⟨2, ![N, C]⟩ ⟨2, ![E, 1]⟩ ⟨2, ![E, C]⟩ [1] [0] [0] 1) (e : Fin E) (c : Fin C) :
    (rowScatterDims N E C wf).window (ix2 e c) 0 = 0 := by
  unfold ScatterDims.window
  rw [dif_neg]
  simp [ScatterDims.sKept, Shape.kept, List.mem_filter, List.mem_finRange]

/-- The column axis carries the update's window axis: its window coordinate is the update's column `c`. -/
theorem rowScatter_window1 {N E C : Nat}
    (wf : ScatterDims.WF ⟨2, ![N, C]⟩ ⟨2, ![E, 1]⟩ ⟨2, ![E, C]⟩ [1] [0] [0] 1) (e : Fin E) (c : Fin C) :
    (rowScatterDims N E C wf).window (ix2 e c) 1 = c.val := by
  unfold ScatterDims.window
  rw [dif_pos (show (1 : Fin 2) ∈ (rowScatterDims N E C wf).sKept from by
    simp [ScatterDims.sKept, Shape.kept, List.mem_filter, List.mem_finRange])]
  rfl

/-- WHERE UPDATE `(e, c)` LANDS: if it lands at operand index `i`, then `i`'s row is the index `idx[e, 0]` read signed
    (so that index is in `[0, N)`) and `i`'s column is `c`. -/
theorem rowScatter_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (rowScatterDims N E C wf).resultIdx? (ix2 e c) idx = some i) :
    (idx (ix2 e (0 : Fin 1))).toInt = ((i 0).val : Int) ∧ (i 1).val = c.val := by
  unfold ScatterDims.resultIdx? at h
  split at h
  · rename_i hc
    have hi := Option.some.inj h
    subst hi
    have h0 := (hc 0).1
    rw [rowScatter_start0, rowScatter_window0] at h0
    refine ⟨?_, ?_⟩
    · show _ = (((rowScatterDims N E C wf).start (ix2 e c) idx 0 + ((rowScatterDims N E C wf).window (ix2 e c) 0 : Nat)).toNat : Int)
      rw [rowScatter_start0, rowScatter_window0]
      omega
    · show ((rowScatterDims N E C wf).start (ix2 e c) idx 1 + ((rowScatterDims N E C wf).window (ix2 e c) 1 : Nat)).toNat = _
      rw [rowScatter_start1, rowScatter_window1]
      omega
  · exact absurd h (by simp)

end Scatter

end Cert.RowIndex
-- ==== Proof.ReferenceValue.lean ====
/-
  THE REFERENCE'S VALUE IS THE LOOKUP, for indices in range.

  jnp.take wraps a negative index by the table's height, gathers the rows (the gather clamps the row into the table),
  and replaces a row whose wrapped index is outside [0, 999999] by a fill. For an index i with 0 ≤ i < 1000000: the
  wrap leaves i alone (it is not negative), the two comparisons of the check hold, so the and over the index column's
  single entry is one and the fill is not taken, and the clamp leaves i alone. What is left is row i of the table.
-/
import proofs.«204638_g89515708383799_cont_9to1_m_1121_23_alg».proof.Proof.ReferenceRun
import proofs.«204638_g89515708383799_cont_9to1_m_1121_23_alg».proof.Proof.LibRowIndex
import proofs.«204638_g89515708383799_cont_9to1_m_1121_23_alg».proof.Proof.LookupSpec
import Idealize.ShloMosaic.Lib.ReduceAll
import Idealize.ShloMosaic.Lib.Affine
import Idealize.ShloMosaic.Lib.ValueIdx
import Idealize.ShloMosaic.Lib.ValueLayout
import Idealize.ShloMosaic.Lib.Pipeline.Value
import Idealize.ShloMosaic.PureOps.Reduce

noncomputable section

namespace Cert.Proof.ReferenceRun

open Cert.ReferenceIdeal Cert.ReferenceIdeal.Gen Idealize.ShloMosaic Idealize.ShloMosaic.ValueIdx

variable {F : FTy → Type} [FloatOps F]

/-- A fold by and over ones, started at one, is one. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- A word below 1000000: not negative, at least 0, at most 999999, and its own value read signed. -/
theorem word_facts (v : BitVec 32) (h : v.toNat < 1000000) :
    ¬ v.toInt < (0#32 : BitVec 32).toInt ∧ (0#32 : BitVec 32).toInt ≤ v.toInt ∧ v.toInt ≤ (999999#32 : BitVec 32).toInt
      ∧ v.toInt.toNat = v.toNat := by
  simp only [BitVec.toInt_eq_toNat_cond, BitVec.toNat_ofNat]
  have : 2 * v.toNat < 2 ^ 32 := by omega
  simp only [this, if_true]
  omega

/-- The index column holds the indices themselves. -/
theorem takeCol_apply (idx : S16384.Idx → BitVec 32) (h : ∀ b, (idx b).toNat < 1000000) (i : S16384x1.Idx) :
    takeCol idx i = idx (ix1 (i 0)) := by
  obtain ⟨p, z, rfl⟩ : ∃ (p : Fin 16384) (z : Fin 1), i = ix2 p z := ⟨i 0, i 1, eq_ix2 i⟩
  obtain ⟨hneg, -, -, -⟩ := word_facts (idx (ix1 p)) (h _)
  unfold takeCol
  rw [broadcastInDim_apply ![0] bcast_S16384_S16384x1_0 _ (ix2 p z) (ix1 p) (fun a => by
    obtain rfl : a = 0 := Subsingleton.elim _ _; rfl)]
  rw [select_apply]
  exact if_neg (fun e => hneg (IntOp.cmpi_slt.1 e))

/-- The bounds check holds at every row. -/
theorem takeMask_one (idx : S16384.Idx → BitVec 32) (h : ∀ b, (idx b).toNat < 1000000) (j : S16384.Idx) :
    takeMask (takeCol idx) j = 1#1 := by
  unfold takeMask
  rw [Host.reduce_eq_foldl]
  refine foldl_andi_ones _ (fun i => ?_) _
  obtain ⟨-, hge, hle, -⟩ := word_facts (idx (ix1 (i 0))) (h _)
  show IntOp.andi (IntOp.cmpi .sge (takeCol idx i) _) (IntOp.cmpi .sle (takeCol idx i) _) = 1#1
  rw [takeCol_apply idx h]
  exact IntOp.andi_eq_one.2 ⟨IntOp.cmpi_sge.2 hge, IntOp.cmpi_sle.2 hle⟩

theorem takeOf_eq (w : S1000000x64.Idx → Elt F .f32) (idx : S16384.Idx → BitVec 32) (h : ∀ b, (idx b).toNat < 1000000) :
    takeOf w idx = Cert.Lookup.lookup w idx := by
  funext y
  obtain ⟨p, q, rfl⟩ : ∃ (p : Fin 16384) (q : Fin 64), y = ix2 p q := ⟨y 0, y 1, eq_ix2 y⟩
  obtain ⟨-, -, -, hnat⟩ := word_facts (idx (ix1 p)) (h _)
  unfold takeOf
  rw [select_apply]
  rw [broadcastInDim_apply ![0] bcast_S16384_S16384x64_0 _ (ix2 p q) (ix1 p) (fun a => by
    obtain rfl : a = 0 := Subsingleton.elim _ _; rfl)]
  rw [takeMask_one idx h]
  refine (if_pos rfl).trans ?_
  refine (Cert.RowIndex.rowGather_apply (N := 1000000) (E := 16384) (C := 64) (by decide)
    gather_S1000000x64_S16384x1_S16384x64_1_0_n_n_0_1_164_wf w (takeCol idx) p q).trans ?_
  unfold Cert.Lookup.lookup
  refine congrArg w (congrArg₂ ix2 (Fin.ext ?_) rfl)
  show min (takeCol idx (ix2 p (0 : Fin 1))).toInt.toNat (1000000 - 1) = (Cert.Lookup.rowOf (idx (ix1 p))).val
  rw [takeCol_apply idx h]
  show min (idx (ix1 p)).toInt.toNat (1000000 - 1) = (Cert.Lookup.rowOf (idx (ix1 p))).val
  rw [hnat, Cert.Lookup.rowOf_val (h _)]
  have := h (ix1 p)
  omega

end Cert.Proof.ReferenceRun

end
-- ==== Proof.PreRange.lean ====
/-
  THE PRECONDITION GIVES THE INDICES' RANGE.

  The stated precondition is one bit: (every entry of the first table finite) and (every entry of the second finite)
  and (every index i has 0 ≤ i and i ≤ 999999, as signed words), each "every" a reduction by and. When that bit is
  one, the last conjunct is one, so the reduction is one, so its operand is one at every index: both comparisons hold
  there. A signed 32-bit word between 0 and 999999 is its own unsigned value, below 1000000.
-/
import proofs.«204638_g89515708383799_cont_9to1_m_1121_23_alg».proof.Pre_input_domain
import Idealize.ShloMosaic.Lib.ReduceAll
import Idealize.ShloMosaic.Lib.Affine
import Idealize.ShloMosaic.Lib.ValueIdx

namespace Cert.Proof.PreRange

open Idealize.ShloMosaic Cert.Pre_input_domain

instance : Subsingleton S_.Idx := ⟨fun a b => funext fun d => d.elim0⟩

/-- A signed word between 0 and 999999 is below 1000000 as an unsigned one. -/
theorem word_range (v : BitVec 32) (h0 : (0#32 : BitVec 32).toInt ≤ v.toInt) (h1 : v.toInt ≤ (999999#32 : BitVec 32).toInt) :
    v.toNat < 1000000 := by
  have hlt := v.isLt
  rw [BitVec.toInt_eq_toNat_cond] at h0 h1
  simp only [BitVec.toInt_eq_toNat_cond, BitVec.toNat_ofNat] at h0 h1
  split at h0 <;> omega

theorem idx_range {F : FTy → Type} [FloatOps F] [Cert.Pre_input_domain.Facts] (idx : IVec S16384 32)
    (a b : FVec F S1000000x64 .f32) (h : Cert.Pre_input_domain.fn (F := F) idx a b = fun _ => 1#1) :
    ∀ j, (idx j).toNat < 1000000 := by
  intro j
  have e := congrFun h ValueIdx.ix0
  dsimp only [Cert.Pre_input_domain.fn] at e
  have e14 := (IntOp.andi_eq_one.1 e).2
  have e13 := Host.reduce_andi_all _ _ _ _ _ e14 j
  have e2 := IntOp.andi_eq_one.1 e13
  exact word_range _ (IntOp.cmpi_sge.1 e2.1) (IntOp.cmpi_sle.1 e2.2)

end Cert.Proof.PreRange
-- ==== Proof.lean ====
/-
  An embedding lookup over two tables, on the SparseCores, against two jnp.take: equal as extended reals.

  THE KERNEL lays the two tables W0, W1 : [1000000, 64] side by side into one of 128 columns; each of the 32 vector
  subcores copies its block of 512 indices, gathers the 512 table rows they name, and copies them out to its block of a
  [16384, 128] array; the left and the right 64 columns of that array are the two results. THE REFERENCE is
  jnp.take(W0, idx), jnp.take(W1, idx).

  WHY THEY AGREE. The precondition puts every index in [0, 999999]. Then the reference's wrap of negative indices, its
  bounds check and its gather's clamp are all the identity, and each of its results is (b, j) ↦ W (idx[b], j). The
  kernel's row array ends at (b, j) ↦ T (idx[b], j), T the side-by-side table, block by block; column j < 64 of T is
  column j of W0 and column 64 + j is column j of W1, so its halves are the same two functions. The law is pure data
  movement: no arithmetic on the extended reals is involved, and finiteness of the tables is not used.

  THE FRAMES. The kernel's program is 35 threads; each subcore's three copies have a semaphore each and are waited
  for in turn, so no buffer is touched while a copy that reads or writes it is pending, and every gather offset names
  a table row by the precondition: every weakly fair execution ends, nothing faulting, the arguments unchanged. The
  same text is proved once for the program read over machine words and once read over the extended reals. The
  reference is a straight line of host operations.

  The ideal pass rewrote nothing, so the kernel read over the extended reals is the kernel's own text: nothing to
  preserve.
-/
import proofs.«204638_g89515708383799_cont_9to1_m_1121_23_alg».proof.Defs
import proofs.«204638_g89515708383799_cont_9to1_m_1121_23_alg».proof.Proof.KernelLaunch
import proofs.«204638_g89515708383799_cont_9to1_m_1121_23_alg».proof.Proof.KernelIdealLaunch
import proofs.«204638_g89515708383799_cont_9to1_m_1121_23_alg».proof.Proof.ReferenceValue
import proofs.«204638_g89515708383799_cont_9to1_m_1121_23_alg».proof.Proof.PreRange
import proofs.«204638_g89515708383799_cont_9to1_m_1121_23_alg».proof.Proof.Gen.Kernel
import proofs.«204638_g89515708383799_cont_9to1_m_1121_23_alg».proof.Proof.Gen.KernelIdeal
import proofs.«204638_g89515708383799_cont_9to1_m_1121_23_alg».proof.Proof.Gen.ReferenceIdeal
import proofs.«204638_g89515708383799_cont_9to1_m_1121_23_alg».proof.Proof.Gen.Pre_input_domain
import Idealize.ShloMosaic.Adequacy
import Idealize.ShloMosaic.Init

noncomputable section

namespace Cert.Proof

open Idealize.ShloMosaic Idealize.SL.Sem

/-- The kernel over machine words: it runs, and leaves its arguments alone. -/
theorem frame_k : Cert.frame_Kernel := fun m ρ hpre =>
  (θ_run Cert.Kernel.defs _ _).mono (fun _ h c => ⟨(h c).1, (h c).2.1, (h c).2.2.1⟩)
    (KernelRun.run_main (F := Bits) m ρ (fun d => PreRange.idx_range _ _ _ (hpre d)))

/-- The kernel over the extended reals: the same. -/
theorem frame_ki : Cert.frame_KernelIdeal := fun m ρ hpre =>
  (θ_run Cert.KernelIdeal.defs _ _).mono (fun _ h c => ⟨(h c).1, (h c).2.1, (h c).2.2.1⟩)
    (KernelIdealRun.run_main (F := Ideal) m ρ (fun d => PreRange.idx_range _ _ _ (hpre d)))

/-- The reference: its run with the values dropped. -/
theorem frame_ri : Cert.frame_ReferenceIdeal := fun m ρ _ =>
  (θ_run Cert.ReferenceIdeal.defs _ _).mono (fun _ h c => (h c).2.2) (ReferenceRun.run (F := Ideal) m ρ)

/-- Both programs end with the two lookups: the kernel's halves of the wide lookup are the reference's two. -/
theorem algebraic : Cert.algebraic_KernelIdeal_ReferenceIdeal := by
  intro m ρ m' ρ' hpre hagree
  have hok : KernelIdealRun.PreOK m := fun d => PreRange.idx_range _ _ _ (hpre d)
  refine ⟨fun c => KernelIdealRun.resL m c, fun c => KernelIdealRun.resR m c, ?_, ?_⟩
  · exact (θ_run Cert.KernelIdeal.defs _ _).mono
      (fun _ h c => ⟨(h c).2.2.2.1, (h c).2.2.2.2, (h c).1, (h c).2.1, (h c).2.2.1⟩)
      (KernelIdealRun.run_main (F := Ideal) m ρ hok)
  · refine (θ_run Cert.ReferenceIdeal.defs _ _).mono
      (fun _ h c => ⟨(h c).1.trans ?_, (h c).2.1.trans ?_, (h c).2.2.1, (h c).2.2.2.1, (h c).2.2.2.2⟩)
      (ReferenceRun.run (F := Ideal) m' ρ')
    · rw [(hagree c).1, (hagree c).2.1, ReferenceRun.takeOf_eq _ _ (hok c)]
      exact (Cert.Lookup.left_half _ _ _ _ _).symm
    · rw [(hagree c).1, (hagree c).2.2, ReferenceRun.takeOf_eq _ _ (hok c)]
      exact (Cert.Lookup.right_half _ _ _ _ _).symm

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
